-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S256x4096 : Shape := ⟨2, ![256, 4096]⟩
abbrev S4096x256 : Shape := ⟨2, ![4096, 256]⟩
abbrev S512x8x256 : Shape := ⟨3, ![512, 8, 256]⟩
abbrev S512x256 : Shape := ⟨2, ![512, 256]⟩
abbrev S512x1x256 : Shape := ⟨3, ![512, 1, 256]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S1x4096, .f32⟩
  | .hbm, ⟨5, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .bf16⟩
  | .local _ .vmem, ⟨3, _⟩ => ⟨S4096x256, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  transposes_S256x4096_p1_0_S4096x256 : S256x4096.Transposes [1, 0] S4096x256
  shapeCasts_S4096x256_S512x8x256 : S4096x256.ShapeCasts S512x8x256
  reduces_S512x8x256_S512x256 : S512x8x256.Reduces [1] S512x256
  shapeCasts_S512x256_S512x1x256 : S512x256.ShapeCasts S512x1x256
  broadcasts_S512x1x256_S512x8x256 : S512x1x256.Broadcasts S512x8x256
  shapeCasts_S512x8x256_S4096x256 : S512x8x256.ShapeCasts S4096x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .bf16 = 32 ∨ (Rect.block (s := S4096x4096) S4096x256.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .f32 = 32 ∨ (Rect.block (s := S8192x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x4096.size a
  hwx1_3 : ∀ i : grid1.Coords, EltTy.bits .f32 = 32 ∨ (Rect.block (s := S8192x4096) S1024x1024.size (cc1_transform_3 i) (hinb1_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S4096x512x8 : Shape := ⟨3, ![4096, 512, 8]⟩
abbrev S_ : Shape := ⟨0, ![]⟩
abbrev S4096x512 : Shape := ⟨2, ![4096, 512]⟩
abbrev S4096x512x1 : Shape := ⟨3, ![4096, 512, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x512x8, .f32⟩
  | .hbm, ⟨4, _⟩ => ⟨S4096x512x8, .f32⟩
  | .hbm, ⟨5, _⟩ => ⟨S_, .f32⟩
  | .hbm, ⟨6, _⟩ => ⟨S4096x512, .f32⟩
  | .hbm, ⟨7, _⟩ => ⟨S4096x512x1, .f32⟩
  | .hbm, ⟨8, _⟩ => ⟨S_, .f32⟩
  | .hbm, ⟨9, _⟩ => ⟨S4096x512x1, .f32⟩
  | .hbm, ⟨10, _⟩ => ⟨S4096x512x1, .f32⟩
  | .hbm, ⟨11, _⟩ => ⟨S_, .f32⟩
  | .hbm, ⟨12, _⟩ => ⟨S4096x512x1, .f32⟩
  | .hbm, ⟨13, _⟩ => ⟨S4096x512x1, .f32⟩
  | .hbm, ⟨14, _⟩ => ⟨S4096x512x8, .f32⟩
  | .hbm, ⟨15, _⟩ => ⟨S4096x512x8, .f32⟩
  | .hbm, ⟨16, _⟩ => ⟨S4096x512x8, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S4096x512x8, .f32⟩
  | .hbm, ⟨21, _⟩ => ⟨S4096x512x8, .f32⟩
  | .hbm, ⟨22, _⟩ => ⟨S_, .f32⟩
  | .hbm, ⟨23, _⟩ => ⟨S4096x512x8, .f32⟩
  | .hbm, ⟨24, _⟩ => ⟨S4096x512x8, .f32⟩
  | .hbm, ⟨25, _⟩ => ⟨S4096x512x8, .f32⟩
  | .hbm, ⟨26, _⟩ => ⟨S4096x512x8, .f32⟩
  | .hbm, ⟨27, _⟩ => ⟨S4096x4096, .f32⟩
  | .hbm, ⟨28, _⟩ => ⟨S4096x4096, .f32⟩
  | .hbm, ⟨29, _⟩ => ⟨S8192x4096, .f32⟩
  | .hbm, ⟨30, _⟩ => ⟨S1x4096, .f32⟩
  | .hbm, ⟨31, _⟩ => ⟨S8192x4096, .f32⟩
  | .hbm, ⟨32, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  shapeCasts_S4096x4096_S4096x512x8 : S4096x4096.ShapeCasts S4096x512x8
  reducesTo_S4096x512x8_S4096x512_d2 : S4096x512x8.ReducesTo [2] S4096x512
  h_S_ : 0 < S_.numel
  bcast_S4096x512_S4096x512x1_0_1 : S4096x512.BroadcastsInDim S4096x512x1 (![0, 1] : Fin 2 → Fin S4096x512x1.rank)
  bcast_S_S4096x512x1 : S_.BroadcastsInDim S4096x512x1 (![] : Fin 0 → Fin S4096x512x1.rank)
  bcast_S4096x512x1_S4096x512x8_0_1_2 : S4096x512x1.BroadcastsInDim S4096x512x8 (![0, 1, 2] : Fin 3 → Fin S4096x512x8.rank)
  bcast_S_S4096x512x8 : S_.BroadcastsInDim S4096x512x8 (![] : Fin 0 → Fin S4096x512x8.rank)
  shapeCasts_S4096x512x8_S4096x4096 : S4096x512x8.ShapeCasts S4096x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Word.QuantRegion.lean ====
/-
  The first kernel region (the weight quantiser) as one step of the pipeline, at any float instance.
  The region walks the 16 row blocks of the weight matrix (256 rows each, all 4096 columns). At block `t` the body reads the
  block, and writes into the output window's buffer one function of it: the quantise-dequantise payload, transposed
  (4096 × 256). So after the body the output buffer holds that payload of the input block, whatever it held before, and the
  input buffer is as it was. Nothing is carried from one block to the next.
-/
import proofs.«181300_j51196010168686_1_alg».proof.Proof.Gen.Kernel.Launch
import proofs.«181300_j51196010168686_1_alg».proof.Proof.Gen.Kernel.Skeleton
import proofs.«181300_j51196010168686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of several thousand entries recurses once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at point `t`, read off its array as the region finds it. -/
def qblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds its block at every point, for any proof data over the entry contents whose body
    leaves the block in place. -/
theorem qbefore_of {c : Dev nD} (dat : Dat τ (Elt F) Unit ℕ (UR sig nD τ) ℕ cfg0 c) (hA : dat.A 0 = V c (Pipeline.arrRef spec0 0))
    (hafter : ∀ t, dat.after 0 t = qblk V c 0 t) (t : Fin cfg0.N) (d) : dat.before 0 t d = qblk V c 0 t :=
  (dat.before_in_eq_fetched 0 rfl (fun _ => rfl) (fun _ _ _ => rfl) (fun t => by rw [hafter]; unfold Dat.blockOf qblk; rw [hA]; try rfl) t d).trans
    (by unfold Dat.fetched Dat.blockOf qblk; rw [hA]; try rfl)

/-- The whole input block and the whole output block as rectangles. -/
abbrev qrIn : Rect S256x4096 := Rect.unit (s := S256x4096) ![0, 0] S256x4096.size inb_S256x4096_S256x4096_0_0
abbrev qrOut : Rect S4096x256 := Rect.unit (s := S4096x256) ![0, 0] S4096x256.size inb_S4096x256_S4096x256_0_0

/-- What the body leaves in the output buffer: its one store, of the payload of the loaded block. -/
def qout (x0 : Vec F S256x4096 .f32) : Vec F S4096x256 .bf16 :=
  View.canon [⟨qrOut, k0_pay1 (View.ld x0 qrIn)⟩]

/-- The one store covers the buffer. -/
theorem qcover (p0 : Vec F S4096x256 .bf16) (y : S4096x256.Idx) :
    ∃ pc ∈ ([⟨qrOut, p0⟩] : List (View.Piece (Elt F) S4096x256 .bf16)), y ∈ pc.1.set :=
  View.cover_of_tiled [⟨qrOut, p0⟩] S4096x256.size (by rfl) y

set_option maxHeartbeats 1000000 in
/-- The body on whole buffers: the input's at `x0`, the output's at anything; it ends with the input's unchanged and the
    output's at `qout x0`. -/
theorem qkernel (c : Dev nD) (E : Set ℕ) (i : grid0.Coords) (arg1 : Memref sig .tc .vmem S256x4096 .f32) (harg1 : arg1.IsWhole)
    (arg2 : Memref sig .tc .vmem S4096x256 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (qout x0)) -∗ K ⟨⟩))
      ⊢ wp frame (wpE (defs₀ (F := F)) Variants.none c none) E (cc0_quant_kernel i arg1 harg1 arg2 harg2) K := by
  simp only [cc0_quant_kernel_eq_skeleton]; unfold cc0_quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (qcover _)

/-- The proof data of the region: the arrays as found; after the body the input's buffer at its block and the output's at
    the payload of that block; the scoped rest and the generator register untouched; nothing owed. -/
def qdat (c : Dev nD) : Dat τ (Elt F) Unit ℕ (UR sig nD τ) ℕ cfg0 c where
  A w := V c (Pipeline.arrRef spec0 w)
  after w t := match w with
    | ⟨0, _⟩ => qblk V c 0 t
    | ⟨1, _⟩ => qout (qblk V c 0 t)
  Φ _ := Pipeline.ΦA spec0 c
  q _ := fullShare
  owed _ := 0

theorem qA_eq (c : Dev nD) (w : Fin cfg0.W) : (qdat V c).A w = V c (Pipeline.arrRef spec0 w) := by
  dsimp only [qdat]
theorem qafter_0 (c : Dev nD) (t : Fin cfg0.N) : (qdat V c).after 0 t = qblk V c 0 t := by dsimp only [qdat]
theorem qafter_1 (c : Dev nD) (t : Fin cfg0.N) : (qdat V c).after 1 t = qout (qblk V c 0 t) := by dsimp only [qdat]
theorem qbefore_0 (c : Dev nD) (t : Fin cfg0.N) (d) : (qdat V c).before 0 t d = qblk V c 0 t :=
  qbefore_of V (qdat V c) (qA_eq V c 0) (qafter_0 V c) t d

/-- What the body is called with at point `t`, -/
def qbodyPre (c : Dev nD) (t : Fin cfg0.N) : sProp 𝕄 :=
  iprop((qdat V c).Φ t.castSucc ∗ (qdat V c).owesAt () t.castSucc
    ∗ (∃ d, owns (c : Thread nD τ) (st0_0 t) fullShare ((qdat V c).before 0 t d))
    ∗ (∃ d, owns (c : Thread nD τ) (st0_1 t) fullShare ((qdat V c).before 1 t d)))

/-- and what it returns. -/
def qbodyPost (c : Dev nD) (t : Fin cfg0.N) : sProp 𝕄 :=
  iprop((qdat V c).Φ t.succ ∗ (qdat V c).owesAt () t.succ
    ∗ owns (c : Thread nD τ) (st0_0 t) fullShare ((qdat V c).after 0 t)
    ∗ owns (c : Thread nD τ) (st0_1 t) fullShare ((qdat V c).after 1 t))

theorem qsound_body (c : Dev nD) (t : Fin cfg0.N) :
    qbodyPre V c t ⊢ wp frame (wpE (defs₀ (F := F)) Variants.none c none) Set.univ (bodyAt0 t) (fun _ => qbodyPost V c t) := by
  unfold qbodyPre qbodyPost bodyAt0
  simp only [qbefore_0]
  rw [show (qdat V c).Φ t.succ = (qdat V c).Φ t.castSucc from rfl,
    show (qdat V c).owesAt () t.succ = (qdat V c).owesAt () t.castSucc from rfl,
    qafter_0, qafter_1]
  iintro ⟨HΦ, Ho, ⟨%d0, H0⟩, ⟨%d1, H1⟩⟩
  iapply (qkernel c Set.univ _ _ _ _ _ (qblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem qbody_obligation (c : Dev nD) : BodyObligation (qdat (F := F) V c) (defs₀ (F := F)) Variants.none () Set.univ := fun t => by
  rw [bigSep_W0, bigSep_W0]
  exact qsound_body V c t

end

end Cert.Kernel.Run

end
-- ==== Proof.Word.MatmulRuns.lean ====
/-
  What the three runs of the second kernel region (the K-blocked matrix product) share, at any float instance.
  The region's grid is 8 × 4 × 4 (row block, column block, K block; the K block runs fastest), 128 points in all, so the K
  block of point `t` is `t mod 4`. The body zeroes its accumulator scratch when the K block is 0, always adds the product of
  the point's x block and weight block to it, and when the K block is 3 stores accumulator + bias into the output window.
  So there are three control cases: first K block, middle K blocks, last K block. Here: the two conditions in closed
  form over the grid, where the output window is idle, the point's buffers, and the region invariant with the scratch's
  contents as a parameter.
-/
import proofs.«181300_j51196010168686_1_alg».proof.Proof.Gen.Kernel.Launch
import proofs.«181300_j51196010168686_1_alg».proof.Proof.Gen.Kernel.Skeleton
import proofs.«181300_j51196010168686_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of several thousand entries recurses once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "The K block is 0", as the body computes it from the grid coordinates. -/
abbrev kFirst (i : grid1.Coords) : Prop := (Scalar.cmpi .ne (Scalar.extui (Scalar.cmpi .eq (BitVec.ofNat 32 (i 2).val) 0#32)) 0#32) = 1#1
theorem hkFirst : ∀ t : Fin cfg1.N, kFirst (grid1.coords t) ↔ t.val % 4 = 0 :=
  (by decide +kernel : ∀ t : Fin grid1.N, kFirst (grid1.coords t) ↔ t.val % 4 = 0)

/-- "The K block is 3". -/
abbrev kLast (i : grid1.Coords) : Prop := k1_cond2 i = 1#1
theorem hkLast : ∀ t : Fin cfg1.N, kLast (grid1.coords t) ↔ t.val % 4 = 3 :=
  (by decide +kernel : ∀ t : Fin grid1.N, kLast (grid1.coords t) ↔ t.val % 4 = 3)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Unless the K block is 3 the output window is idle and is not written back. -/
theorem idle_3 : ∀ t : Fin cfg1.N, ¬kLast (grid1.coords t) → cfg1.idle 3 (grid1.coords t) = true := by decide +kernel
theorem noFlush_3 : ∀ t : Fin cfg1.N, ¬kLast (grid1.coords t) → (cfg1.win 3).flush t = false := by decide +kernel
theorem live_3 : ∀ t : Fin cfg1.N, kLast (grid1.coords t) → cfg1.idle 3 (grid1.coords t) = false := by decide +kernel

/-! ## The point's buffers -/

abbrev mb0 (t : Fin cfg1.N) : Memref sig .tc .vmem S1024x1024 .f32 := win1_0.stage (cfg1.slots t 0)
abbrev hb0 (t : Fin cfg1.N) : (mb0 t).IsWhole := hstage1_0 ((cfg1.slots t 0).cast nbuf1_0)
abbrev mb1 (t : Fin cfg1.N) : Memref sig .tc .vmem S1024x1024 .bf16 := win1_1.stage (cfg1.slots t 1)
abbrev hb1 (t : Fin cfg1.N) : (mb1 t).IsWhole := hstage1_1 ((cfg1.slots t 1).cast nbuf1_1)
abbrev mb2 (t : Fin cfg1.N) : Memref sig .tc .vmem S1x1024 .f32 := win1_2.stage (cfg1.slots t 2)
abbrev hb2 (t : Fin cfg1.N) : (mb2 t).IsWhole := hstage1_2 ((cfg1.slots t 2).cast nbuf1_2)
abbrev mb3 (t : Fin cfg1.N) : Memref sig .tc .vmem S1024x1024 .f32 := win1_3.stage (cfg1.slots t 3)
abbrev hb3 (t : Fin cfg1.N) : (mb3 t).IsWhole := hstage1_3 ((cfg1.slots t 3).cast nbuf1_3)
/-- The accumulator scratch, a whole buffer of the kernel's own, and the views contents are stated through. -/
abbrev accM : Memref sig .tc .vmem S1024x1024 .f32 := Memref.whole cc1_scratch0
abbrev accV : View sig .tc .vmem S1024x1024 .f32 := accM.view
abbrev outV : View sig .tc .vmem S1024x1024 .f32 := (Memref.whole cc1_stg3_0 : Memref sig .tc .vmem S1024x1024 .f32).view

/-! ## The region invariant, the accumulator's part a parameter -/

/-- The scoped buffers the region does not stage — the first region's four staging buffers, each at some contents, and the
    accumulator as `S` says — beside the generator register at some state. -/
def PhiAcc (c : Dev nD) (S : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ S) ∗ (∃ r, prngReg c r))

/-- With the accumulator at anything it is the class's invariant. -/
theorem PhiA_eq (c : Dev nD) :
    (Pipeline.ΦA spec1 c : sProp 𝕄) = PhiAcc c (iprop(∃ d, owns (c : Thread nD τ) accM fullShare d)) := by
  unfold Pipeline.ΦA PhiAcc; rw [scopedRest1_eq]; simp only [accM, owns_whole]; try rfl

/-- The accumulator's part taken out of the invariant, and put back. -/
theorem PhiAcc_take (c : Dev nD) (S : sProp 𝕄) : PhiAcc c S ⊢ iprop(S ∗ (S -∗ PhiAcc c S)) := by
  unfold PhiAcc
  iintro ⟨⟨HA, HB, HC, HD, HS⟩, Hg⟩
  isplitl [HS]; · iexact HS
  iintro HS
  isplitr [Hg]
  · isplitl [HA]; · iexact HA
    isplitl [HB]; · iexact HB
    isplitl [HC]; · iexact HC
    isplitl [HD]; · iexact HD
    iexact HS
  iexact Hg

/-- The accumulator's part exchanged. -/
theorem PhiAcc_swap (c : Dev nD) (S S' : sProp 𝕄) : iprop(PhiAcc c S) ⊢ iprop(S ∗ (S' -∗ PhiAcc c S')) := by
  unfold PhiAcc
  iintro ⟨⟨HA, HB, HC, HD, HS⟩, Hg⟩
  isplitl [HS]; · iexact HS
  iintro HS
  isplitr [Hg]
  · isplitl [HA]; · iexact HA
    isplitl [HB]; · iexact HB
    isplitl [HC]; · iexact HC
    isplitl [HD]; · iexact HD
    iexact HS
  iexact Hg

end Cert.Kernel.Run

end
-- ==== Proof.Word.MatmulRunA.lean ====
/-
  The matrix-product body when the K block is 0: the accumulator, whatever it held, is first set to zero and then receives
  zero + (x block · weight block); the output window is not touched and its buffer is handed back as it came. The pieces the
  accumulator ends with are found by running the body.
-/
import proofs.«181300_j51196010168686_1_alg».proof.Proof.Word.MatmulRuns

-- membership in a rectangle with axes of several thousand entries recurses once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output window's buffer (none) and in the accumulator, in the first-K-block
    case, with the proof that the body runs from the inputs' buffers at `x0 x1 x2`, the output's at `xi3` and the
    accumulator at anything to the same buffers with the accumulator's pieces written. -/
noncomputable def runFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : kFirst i) (hc1 : ¬kLast i)
    (x0 : Vec F S1024x1024 .f32) (x1 : Vec F S1024x1024 .bf16) (x2 : Vec F S1x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc1_matmul_kernel i arg3 harg3 arg4 harg4 arg5 harg5 arg6 harg6 arg7 harg7) K } := by
  refine ⟨[], ?_, fun xi3 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Run

end
-- ==== Proof.Word.MatmulRunB.lean ====
/-
  The matrix-product body when the K block is 1 or 2: the accumulator, holding what the point before left, receives
  itself + (x block · weight block); the output window is not touched.
-/
import proofs.«181300_j51196010168686_1_alg».proof.Proof.Word.MatmulRunA

-- membership in a rectangle with axes of several thousand entries recurses once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces in the middle-K-block case: none for the output window; the accumulator's found by running the body from the
    accumulator at `xs`. -/
noncomputable def runMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : ¬kLast i)
    (x0 : Vec F S1024x1024 .f32) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc1_matmul_kernel i arg3 harg3 arg4 harg4 arg5 harg5 arg6 harg6 arg7 harg7) K } := by
  refine ⟨[], ?_, fun xi3 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Run

end
-- ==== Proof.Word.MatmulRunC.lean ====
/-
  The matrix-product body when the K block is 3: the accumulator receives itself + (x block · weight block), and the output
  window's buffer, whatever it held, receives that new accumulator + the bias row.
-/
import proofs.«181300_j51196010168686_1_alg».proof.Proof.Word.MatmulRunB

-- membership in a rectangle with axes of several thousand entries recurses once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces in the last-K-block case, both found by running the body from the accumulator at `xs` and the output's buffer
    at anything. -/
noncomputable def runLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : kLast i)
    (x0 : Vec F S1024x1024 .f32) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc1_matmul_kernel i arg3 harg3 arg4 harg4 arg5 harg5 arg6 harg6 arg7 harg7) K } := by
  refine ⟨?_, ?_, fun E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Run

end
-- ==== Proof.Word.MatmulRegion.lean ====
/-
  The second kernel region (the K-blocked matrix product) as a pipeline step, at any float instance: what the accumulator
  scratch and the output window's buffer hold after each of the 128 grid points, by recursion on the point — at a point
  whose K block is 0 what the first-case run leaves from the point's blocks alone; at a later K block what the middle (or
  last) run leaves from the point's blocks and the accumulator the point before left —, the region invariant (the accumulator
  at exactly that), the proof data, and the body obligation at every point by cases on the K block.
-/
import proofs.«181300_j51196010168686_1_alg».proof.Proof.Word.MatmulRunC

-- membership in a rectangle with axes of several thousand entries recurses once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- First K block: the output window's buffer is not stored into (a placeholder nothing reads), -/
def outFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : kFirst i) (hc1 : ¬kLast i) (x0 : Vec F S1024x1024 .f32) (x1 : Vec F S1024x1024 .bf16) (x2 : Vec F S1x1024 .f32) : Vec F S1024x1024 .f32 :=
  outV.read (Elt F) (outV.writes (Elt F) outV.junk (runFirst c i arg3 harg3 arg4 harg4 arg5 harg5 arg6 harg6 arg7 harg7 hc0 hc1 x0 x1 x2).1)
/-- and the accumulator's pieces cover it, -/
theorem accFirst_cover (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : kFirst i) (hc1 : ¬kLast i) (x0 : Vec F S1024x1024 .f32) (x1 : Vec F S1024x1024 .bf16) (x2 : Vec F S1x1024 .f32) (y : S1024x1024.Idx) :
    ∃ pc ∈ (runFirst c i arg3 harg3 arg4 harg4 arg5 harg5 arg6 harg6 arg7 harg7 hc0 hc1 x0 x1 x2).2.1, y ∈ pc.1.set :=
  View.cover_of_tiledL (runFirst c i arg3 harg3 arg4 harg4 arg5 harg5 arg6 harg6 arg7 harg7 hc0 hc1 x0 x1 x2).2.1 S1024x1024.size (by sl_kernel_rfl) y
/-- so it ends at them read back. -/
def accFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : kFirst i) (hc1 : ¬kLast i) (x0 : Vec F S1024x1024 .f32) (x1 : Vec F S1024x1024 .bf16) (x2 : Vec F S1x1024 .f32) : Vec F S1024x1024 .f32 :=
  accV.read (Elt F) (accV.writes (Elt F) accV.junk (runFirst c i arg3 harg3 arg4 harg4 arg5 harg5 arg6 harg6 arg7 harg7 hc0 hc1 x0 x1 x2).2.1)

/-- Middle K blocks: the same over the accumulator `xs` the point before left. -/
def outMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : ¬kLast i) (x0 : Vec F S1024x1024 .f32) (x1 : Vec F S1024x1024 .bf16) (x2 : Vec F S1x1024 .f32) (xs : Vec F S1024x1024 .f32) : Vec F S1024x1024 .f32 :=
  outV.read (Elt F) (outV.writes (Elt F) outV.junk (runMid c i arg3 harg3 arg4 harg4 arg5 harg5 arg6 harg6 arg7 harg7 hc0 hc1 x0 x1 x2 xs).1)
theorem accMid_cover (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : ¬kLast i) (x0 : Vec F S1024x1024 .f32) (x1 : Vec F S1024x1024 .bf16) (x2 : Vec F S1x1024 .f32) (xs : Vec F S1024x1024 .f32) (y : S1024x1024.Idx) :
    ∃ pc ∈ (runMid c i arg3 harg3 arg4 harg4 arg5 harg5 arg6 harg6 arg7 harg7 hc0 hc1 x0 x1 x2 xs).2.1, y ∈ pc.1.set :=
  View.cover_of_tiledL (runMid c i arg3 harg3 arg4 harg4 arg5 harg5 arg6 harg6 arg7 harg7 hc0 hc1 x0 x1 x2 xs).2.1 S1024x1024.size (by sl_kernel_rfl) y
def accMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : ¬kLast i) (x0 : Vec F S1024x1024 .f32) (x1 : Vec F S1024x1024 .bf16) (x2 : Vec F S1x1024 .f32) (xs : Vec F S1024x1024 .f32) : Vec F S1024x1024 .f32 :=
  accV.read (Elt F) (accV.writes (Elt F) accV.junk (runMid c i arg3 harg3 arg4 harg4 arg5 harg5 arg6 harg6 arg7 harg7 hc0 hc1 x0 x1 x2 xs).2.1)

/-- Last K block: the output window's buffer is stored whole, -/
theorem outLast_cover (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : kLast i) (x0 : Vec F S1024x1024 .f32) (x1 : Vec F S1024x1024 .bf16) (x2 : Vec F S1x1024 .f32) (xs : Vec F S1024x1024 .f32) (y : S1024x1024.Idx) :
    ∃ pc ∈ (runLast c i arg3 harg3 arg4 harg4 arg5 harg5 arg6 harg6 arg7 harg7 hc0 hc1 x0 x1 x2 xs).1, y ∈ pc.1.set :=
  View.cover_of_tiledL (runLast c i arg3 harg3 arg4 harg4 arg5 harg5 arg6 harg6 arg7 harg7 hc0 hc1 x0 x1 x2 xs).1 S1024x1024.size (by sl_kernel_rfl) y
def outLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : kLast i) (x0 : Vec F S1024x1024 .f32) (x1 : Vec F S1024x1024 .bf16) (x2 : Vec F S1x1024 .f32) (xs : Vec F S1024x1024 .f32) : Vec F S1024x1024 .f32 :=
  outV.read (Elt F) (outV.writes (Elt F) outV.junk (runLast c i arg3 harg3 arg4 harg4 arg5 harg5 arg6 harg6 arg7 harg7 hc0 hc1 x0 x1 x2 xs).1)
/-- and so is the accumulator. -/
theorem accLast_cover (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : kLast i) (x0 : Vec F S1024x1024 .f32) (x1 : Vec F S1024x1024 .bf16) (x2 : Vec F S1x1024 .f32) (xs : Vec F S1024x1024 .f32) (y : S1024x1024.Idx) :
    ∃ pc ∈ (runLast c i arg3 harg3 arg4 harg4 arg5 harg5 arg6 harg6 arg7 harg7 hc0 hc1 x0 x1 x2 xs).2.1, y ∈ pc.1.set :=
  View.cover_of_tiledL (runLast c i arg3 harg3 arg4 harg4 arg5 harg5 arg6 harg6 arg7 harg7 hc0 hc1 x0 x1 x2 xs).2.1 S1024x1024.size (by sl_kernel_rfl) y
def accLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : kLast i) (x0 : Vec F S1024x1024 .f32) (x1 : Vec F S1024x1024 .bf16) (x2 : Vec F S1x1024 .f32) (xs : Vec F S1024x1024 .f32) : Vec F S1024x1024 .f32 :=
  accV.read (Elt F) (accV.writes (Elt F) accV.junk (runLast c i arg3 harg3 arg4 harg4 arg5 harg5 arg6 harg6 arg7 harg7 hc0 hc1 x0 x1 x2 xs).2.1)

section
-- the buffer contents when the region is entered
variable (V : (c : Dev nD) → (b : Ref sig .tc) → Buf (Elt F) ((c : Thread nD τ).loc b))

/-- Window `w`'s block at point `t`, read off its array as the region finds it. -/
def mblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (the bias row's block is fetched only
    when the column block changes, and is still in place at the other points). -/
theorem mbefore0_of {c : Dev nD} (dat : Dat τ (Elt F) Unit ℕ (UR sig nD τ) ℕ cfg1 c) (hA : dat.A 0 = V c (Pipeline.arrRef spec1 0))
    (hafter : ∀ t, dat.after 0 t = mblk V c 0 t) (t : Fin cfg1.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)
theorem mbefore1_of {c : Dev nD} (dat : Dat τ (Elt F) Unit ℕ (UR sig nD τ) ℕ cfg1 c) (hA : dat.A 1 = V c (Pipeline.arrRef spec1 1))
    (hafter : ∀ t, dat.after 1 t = mblk V c 1 t) (t : Fin cfg1.N) (d) : dat.before 1 t d = mblk V c 1 t :=
  (dat.before_in_eq_fetched 1 rfl (fun _ => rfl) (fun _ _ _ => rfl) (fun t => by rw [hafter]; unfold Dat.blockOf mblk; rw [hA]; try rfl) t d).trans
    (by unfold Dat.fetched Dat.blockOf mblk; rw [hA]; try rfl)
theorem mbefore2_of {c : Dev nD} (dat : Dat τ (Elt F) Unit ℕ (UR sig nD τ) ℕ cfg1 c) (hA : dat.A 2 = V c (Pipeline.arrRef spec1 2))
    (hafter : ∀ t, dat.after 2 t = mblk V c 2 t) (t : Fin cfg1.N) (d) : dat.before 2 t d = mblk V c 2 t :=
  (dat.before_in_eq_fetched 2 rfl (fun _ => rfl) (fun _ _ _ => rfl) (fun t => by rw [hafter]; unfold Dat.blockOf mblk; rw [hA]; try rfl) t d).trans
    (by unfold Dat.fetched Dat.blockOf mblk; rw [hA]; try rfl)

/-! ## Point by point -/

/-- What the output window's buffer and the accumulator hold after the body at position `n`. -/
def accAt (c : Dev nD) : (n : ℕ) → n < cfg1.N → Vec F S1024x1024 .f32 × Vec F S1024x1024 .f32
  | 0, hn => (outFirst c (grid1.coords ⟨0, hn⟩) (mb0 ⟨0, hn⟩) (hb0 ⟨0, hn⟩) (mb1 ⟨0, hn⟩) (hb1 ⟨0, hn⟩) (mb2 ⟨0, hn⟩) (hb2 ⟨0, hn⟩) (mb3 ⟨0, hn⟩) (hb3 ⟨0, hn⟩) accM (Memref.isWhole_whole _) ((hkFirst ⟨0, hn⟩).mpr (Nat.zero_mod _)) (fun h => (fun h => by (try dsimp only at h); omega) ((hkLast ⟨0, hn⟩).mp h)) (mblk V c 0 ⟨0, hn⟩) (mblk V c 1 ⟨0, hn⟩) (mblk V c 2 ⟨0, hn⟩),
      accFirst c (grid1.coords ⟨0, hn⟩) (mb0 ⟨0, hn⟩) (hb0 ⟨0, hn⟩) (mb1 ⟨0, hn⟩) (hb1 ⟨0, hn⟩) (mb2 ⟨0, hn⟩) (hb2 ⟨0, hn⟩) (mb3 ⟨0, hn⟩) (hb3 ⟨0, hn⟩) accM (Memref.isWhole_whole _) ((hkFirst ⟨0, hn⟩).mpr (Nat.zero_mod _)) (fun h => (fun h => by (try dsimp only at h); omega) ((hkLast ⟨0, hn⟩).mp h)) (mblk V c 0 ⟨0, hn⟩) (mblk V c 1 ⟨0, hn⟩) (mblk V c 2 ⟨0, hn⟩))
  | n + 1, hn =>
    if h0 : (n + 1) % 4 = 0 then
      if h1 : (n + 1) % 4 = 3 then
        False.elim (by omega)
      else
        (outFirst c (grid1.coords ⟨n + 1, hn⟩) (mb0 ⟨n + 1, hn⟩) (hb0 ⟨n + 1, hn⟩) (mb1 ⟨n + 1, hn⟩) (hb1 ⟨n + 1, hn⟩) (mb2 ⟨n + 1, hn⟩) (hb2 ⟨n + 1, hn⟩) (mb3 ⟨n + 1, hn⟩) (hb3 ⟨n + 1, hn⟩) accM (Memref.isWhole_whole _) ((hkFirst ⟨n + 1, hn⟩).mpr h0) (fun h => h1 ((hkLast ⟨n + 1, hn⟩).mp h)) (mblk V c 0 ⟨n + 1, hn⟩) (mblk V c 1 ⟨n + 1, hn⟩) (mblk V c 2 ⟨n + 1, hn⟩),
          accFirst c (grid1.coords ⟨n + 1, hn⟩) (mb0 ⟨n + 1, hn⟩) (hb0 ⟨n + 1, hn⟩) (mb1 ⟨n + 1, hn⟩) (hb1 ⟨n + 1, hn⟩) (mb2 ⟨n + 1, hn⟩) (hb2 ⟨n + 1, hn⟩) (mb3 ⟨n + 1, hn⟩) (hb3 ⟨n + 1, hn⟩) accM (Memref.isWhole_whole _) ((hkFirst ⟨n + 1, hn⟩).mpr h0) (fun h => h1 ((hkLast ⟨n + 1, hn⟩).mp h)) (mblk V c 0 ⟨n + 1, hn⟩) (mblk V c 1 ⟨n + 1, hn⟩) (mblk V c 2 ⟨n + 1, hn⟩))
    else
      if h1 : (n + 1) % 4 = 3 then
        (outLast c (grid1.coords ⟨n + 1, hn⟩) (mb0 ⟨n + 1, hn⟩) (hb0 ⟨n + 1, hn⟩) (mb1 ⟨n + 1, hn⟩) (hb1 ⟨n + 1, hn⟩) (mb2 ⟨n + 1, hn⟩) (hb2 ⟨n + 1, hn⟩) (mb3 ⟨n + 1, hn⟩) (hb3 ⟨n + 1, hn⟩) accM (Memref.isWhole_whole _) (fun h => h0 ((hkFirst ⟨n + 1, hn⟩).mp h)) ((hkLast ⟨n + 1, hn⟩).mpr h1) (mblk V c 0 ⟨n + 1, hn⟩) (mblk V c 1 ⟨n + 1, hn⟩) (mblk V c 2 ⟨n + 1, hn⟩) (accAt c n (Nat.lt_of_succ_lt hn)).2,
          accLast c (grid1.coords ⟨n + 1, hn⟩) (mb0 ⟨n + 1, hn⟩) (hb0 ⟨n + 1, hn⟩) (mb1 ⟨n + 1, hn⟩) (hb1 ⟨n + 1, hn⟩) (mb2 ⟨n + 1, hn⟩) (hb2 ⟨n + 1, hn⟩) (mb3 ⟨n + 1, hn⟩) (hb3 ⟨n + 1, hn⟩) accM (Memref.isWhole_whole _) (fun h => h0 ((hkFirst ⟨n + 1, hn⟩).mp h)) ((hkLast ⟨n + 1, hn⟩).mpr h1) (mblk V c 0 ⟨n + 1, hn⟩) (mblk V c 1 ⟨n + 1, hn⟩) (mblk V c 2 ⟨n + 1, hn⟩) (accAt c n (Nat.lt_of_succ_lt hn)).2)
      else
        (outMid c (grid1.coords ⟨n + 1, hn⟩) (mb0 ⟨n + 1, hn⟩) (hb0 ⟨n + 1, hn⟩) (mb1 ⟨n + 1, hn⟩) (hb1 ⟨n + 1, hn⟩) (mb2 ⟨n + 1, hn⟩) (hb2 ⟨n + 1, hn⟩) (mb3 ⟨n + 1, hn⟩) (hb3 ⟨n + 1, hn⟩) accM (Memref.isWhole_whole _) (fun h => h0 ((hkFirst ⟨n + 1, hn⟩).mp h)) (fun h => h1 ((hkLast ⟨n + 1, hn⟩).mp h)) (mblk V c 0 ⟨n + 1, hn⟩) (mblk V c 1 ⟨n + 1, hn⟩) (mblk V c 2 ⟨n + 1, hn⟩) (accAt c n (Nat.lt_of_succ_lt hn)).2,
          accMid c (grid1.coords ⟨n + 1, hn⟩) (mb0 ⟨n + 1, hn⟩) (hb0 ⟨n + 1, hn⟩) (mb1 ⟨n + 1, hn⟩) (hb1 ⟨n + 1, hn⟩) (mb2 ⟨n + 1, hn⟩) (hb2 ⟨n + 1, hn⟩) (mb3 ⟨n + 1, hn⟩) (hb3 ⟨n + 1, hn⟩) accM (Memref.isWhole_whole _) (fun h => h0 ((hkFirst ⟨n + 1, hn⟩).mp h)) (fun h => h1 ((hkLast ⟨n + 1, hn⟩).mp h)) (mblk V c 0 ⟨n + 1, hn⟩) (mblk V c 1 ⟨n + 1, hn⟩) (mblk V c 2 ⟨n + 1, hn⟩) (accAt c n (Nat.lt_of_succ_lt hn)).2)

theorem accAt_first (c : Dev nD) (t : Fin cfg1.N) (h0 : t.val % 4 = 0) (h1 : ¬t.val % 4 = 3) :
    accAt V c t.val t.isLt = (outFirst c (grid1.coords t) (mb0 t) (hb0 t) (mb1 t) (hb1 t) (mb2 t) (hb2 t) (mb3 t) (hb3 t) accM (Memref.isWhole_whole _) ((hkFirst t).mpr h0) (fun h => h1 ((hkLast t).mp h)) (mblk V c 0 t) (mblk V c 1 t) (mblk V c 2 t),
      accFirst c (grid1.coords t) (mb0 t) (hb0 t) (mb1 t) (hb1 t) (mb2 t) (hb2 t) (mb3 t) (hb3 t) accM (Memref.isWhole_whole _) ((hkFirst t).mpr h0) (fun h => h1 ((hkLast t).mp h)) (mblk V c 0 t) (mblk V c 1 t) (mblk V c 2 t)) := by
  obtain ⟨n, hn⟩ := t
  cases n with
  | zero => exact rfl
  | succ n => exact (dif_pos h0).trans ((dif_neg h1).trans rfl)

theorem accAt_mid (c : Dev nD) (t : Fin cfg1.N) (h0 : ¬t.val % 4 = 0) (h1 : ¬t.val % 4 = 3) :
    accAt V c t.val t.isLt = (outMid c (grid1.coords t) (mb0 t) (hb0 t) (mb1 t) (hb1 t) (mb2 t) (hb2 t) (mb3 t) (hb3 t) accM (Memref.isWhole_whole _) (fun h => h0 ((hkFirst t).mp h)) (fun h => h1 ((hkLast t).mp h)) (mblk V c 0 t) (mblk V c 1 t) (mblk V c 2 t) (accAt V c (t.val - 1) (Nat.lt_of_le_of_lt (Nat.sub_le _ _) t.isLt)).2,
      accMid c (grid1.coords t) (mb0 t) (hb0 t) (mb1 t) (hb1 t) (mb2 t) (hb2 t) (mb3 t) (hb3 t) accM (Memref.isWhole_whole _) (fun h => h0 ((hkFirst t).mp h)) (fun h => h1 ((hkLast t).mp h)) (mblk V c 0 t) (mblk V c 1 t) (mblk V c 2 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg1.N) (h0 : ¬t.val % 4 = 0) (h1 : t.val % 4 = 3) :
    accAt V c t.val t.isLt = (outLast c (grid1.coords t) (mb0 t) (hb0 t) (mb1 t) (hb1 t) (mb2 t) (hb2 t) (mb3 t) (hb3 t) accM (Memref.isWhole_whole _) (fun h => h0 ((hkFirst t).mp h)) ((hkLast t).mpr h1) (mblk V c 0 t) (mblk V c 1 t) (mblk V c 2 t) (accAt V c (t.val - 1) (Nat.lt_of_le_of_lt (Nat.sub_le _ _) t.isLt)).2,
      accLast c (grid1.coords t) (mb0 t) (hb0 t) (mb1 t) (hb1 t) (mb2 t) (hb2 t) (mb3 t) (hb3 t) accM (Memref.isWhole_whole _) (fun h => h0 ((hkFirst t).mp h)) ((hkLast t).mpr h1) (mblk V c 0 t) (mblk V c 1 t) (mblk V c 2 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant and the proof data -/

/-- Before position `n`: at the first point the class's invariant (the accumulator at anything), afterwards the
    accumulator at what the point before left. -/
def PhiS (c : Dev nD) : (n : ℕ) → n ≤ cfg1.N → sProp 𝕄
  | 0, _ => Pipeline.ΦA spec1 c
  | n + 1, hn => PhiAcc c (owns (c : Thread nD τ) accM fullShare ((accAt V c n hn).2))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiAcc c (owns (c : Thread nD τ) accM fullShare ((accAt V c n hn).2)) := rfl
theorem PhiS_pos (c : Dev nD) (n : ℕ) (h : n ≤ cfg1.N) (hz : n ≠ 0) :
    PhiS V c n h = PhiAcc c (owns (c : Thread nD τ) accM fullShare ((accAt V c (n - 1) (by omega)).2)) := by
  cases n with
  | zero => exact absurd rfl hz
  | succ n => rfl

/-- The proof data of the region: the arrays as found; after the body each input's buffer at its block and the output's at
    `accAt`'s first component; the invariant `PhiS`; nothing owed. -/
def mdat (c : Dev nD) : Dat τ (Elt F) Unit ℕ (UR sig nD τ) ℕ cfg1 c where
  A w := V c (Pipeline.arrRef spec1 w)
  after w t := match w with
    | ⟨0, _⟩ => mblk V c 0 t
    | ⟨1, _⟩ => mblk V c 1 t
    | ⟨2, _⟩ => mblk V c 2 t
    | ⟨3, _⟩ => (accAt V c t.val t.isLt).1
  Φ t := PhiS V c t.val (Nat.le_of_lt_succ t.isLt)
  q _ := fullShare
  owed _ := 0

theorem mA_eq (c : Dev nD) (w : Fin cfg1.W) : (mdat V c).A w = V c (Pipeline.arrRef spec1 w) := by
  dsimp only [mdat]
theorem PhiS_castSucc (c : Dev nD) (t : Fin cfg1.N) :
    (mdat V c).Φ t.castSucc = PhiS V c t.val (Nat.le_of_lt t.isLt) := by
  dsimp only [mdat]; simp only [Fin.coe_castSucc]
theorem mafter_0 (c : Dev nD) (t : Fin cfg1.N) : (mdat V c).after 0 t = mblk V c 0 t := by dsimp only [mdat]
theorem mafter_1 (c : Dev nD) (t : Fin cfg1.N) : (mdat V c).after 1 t = mblk V c 1 t := by dsimp only [mdat]
theorem mafter_2 (c : Dev nD) (t : Fin cfg1.N) : (mdat V c).after 2 t = mblk V c 2 t := by dsimp only [mdat]
theorem mafter_3 (c : Dev nD) (t : Fin cfg1.N) : (mdat V c).after 3 t = (accAt V c t.val t.isLt).1 := by dsimp only [mdat]
theorem mbefore_0 (c : Dev nD) (t : Fin cfg1.N) (d) : (mdat V c).before 0 t d = mblk V c 0 t :=
  mbefore0_of V (mdat V c) (mA_eq V c 0) (mafter_0 V c) t d
theorem mbefore_1 (c : Dev nD) (t : Fin cfg1.N) (d) : (mdat V c).before 1 t d = mblk V c 1 t :=
  mbefore1_of V (mdat V c) (mA_eq V c 1) (mafter_1 V c) t d
theorem mbefore_2 (c : Dev nD) (t : Fin cfg1.N) (d) : (mdat V c).before 2 t d = mblk V c 2 t :=
  mbefore2_of V (mdat V c) (mA_eq V c 2) (mafter_2 V c) t d

/-! ## The body obligation -/

def mbodyPre (c : Dev nD) (t : Fin cfg1.N) : sProp 𝕄 :=
  iprop((mdat V c).Φ t.castSucc ∗ (mdat V c).owesAt () t.castSucc
    ∗ (∃ d, owns (c : Thread nD τ) (mb0 t) fullShare ((mdat V c).before 0 t d))
    ∗ (∃ d, owns (c : Thread nD τ) (mb1 t) fullShare ((mdat V c).before 1 t d))
    ∗ (∃ d, owns (c : Thread nD τ) (mb2 t) fullShare ((mdat V c).before 2 t d))
    ∗ (∃ d, owns (c : Thread nD τ) (mb3 t) fullShare ((mdat V c).before 3 t d)))

def mbodyPost (c : Dev nD) (t : Fin cfg1.N) : sProp 𝕄 :=
  iprop((mdat V c).Φ t.succ ∗ (mdat V c).owesAt () t.succ
    ∗ (mdat V c).leavesExact 0 t
    ∗ (mdat V c).leavesExact 1 t
    ∗ (mdat V c).leavesExact 2 t
    ∗ (mdat V c).leavesExact 3 t)

theorem leaves_in (c : Dev nD) (t : Fin cfg1.N) :
    (mdat V c).leavesExact 0 t = owns (c : Thread nD τ) (mb0 t) fullShare (mblk V c 0 t)
    ∧ (mdat V c).leavesExact 1 t = owns (c : Thread nD τ) (mb1 t) fullShare (mblk V c 1 t)
    ∧ (mdat V c).leavesExact 2 t = owns (c : Thread nD τ) (mb2 t) fullShare (mblk V c 2 t) := by
  refine ⟨?_, ?_, ?_⟩
  · unfold Dat.leavesExact; rw [live_0 t, mafter_0]
  · unfold Dat.leavesExact; rw [live_1 t, mafter_1]
  · unfold Dat.leavesExact; rw [live_2 t, mafter_2]

set_option maxHeartbeats 4800000 in
/-- The body at any point, by cases on the K block: the inputs' buffers hold their blocks; the invariant hands over the
    accumulator at what the point before left (at anything when the K block is 0) and takes it back at this point's contents. -/
theorem msound_body (c : Dev nD) (t : Fin cfg1.N) :
    mbodyPre V c t ⊢ wp frame (wpE (defs₀ (F := F)) Variants.none c none) Set.univ (bodyAt1 t) (fun _ => mbodyPost V c t) := by
  unfold mbodyPre mbodyPost bodyAt1
  simp only [mbefore_0, mbefore_1, mbefore_2]
  rw [show (mdat V c).owesAt () t.succ = (mdat V c).owesAt () t.castSucc from rfl]
  rw [show (mdat V c).Φ t.succ = PhiS V c (t.val + 1) t.isLt from rfl, PhiS_succ]
  rw [(leaves_in V c t).1, (leaves_in V c t).2.1, (leaves_in V c t).2.2]
  have hN : t.val < 128 := lt_of_lt_of_eq t.isLt (show cfg1.N = 128 from N_1)
  by_cases h0 : t.val % 4 = 0
  · have h1 : ¬t.val % 4 = 3 := by omega
    rw [Dat.leavesExact_idle (mdat V c) 3 t (idle_3 t (fun h => h1 ((hkLast t).mp h))) (noFlush_3 t (fun h => h1 ((hkLast t).mp h)))]
    rw [accAt_first V c t h0 h1]
    unfold accFirst; (try dsimp only)
    have hpre : (mdat V c).Φ t.castSucc ⊢ PhiAcc c (iprop(∃ d, owns (c : Thread nD τ) accM fullShare d)) := by
      rw [PhiS_castSucc V c t]
      by_cases hz : t.val = 0
      · rw [PhiS_zero V c _ _ hz, PhiA_eq]
      · rw [PhiS_pos V c _ _ hz]
        unfold PhiAcc
        iintro ⟨⟨HA, HB, HC, HD, HS⟩, Hg⟩
        isplitr [Hg]
        · isplitl [HA]; · iexact HA
          isplitl [HB]; · iexact HB
          isplitl [HC]; · iexact HC
          isplitl [HD]; · iexact HD
          iexists _; iexact HS
        iexact Hg
    iintro ⟨HΦ, Ho, ⟨%d0, H0⟩, ⟨%d1, H1⟩, ⟨%d2, H2⟩, ⟨%d3, H3⟩⟩
    ihave HΦ := hpre $$ HΦ
    ihave HΦ := (PhiAcc_swap c _ (owns (c : Thread nD τ) accM fullShare (accV.read (Elt F) (accV.writes (Elt F) accV.junk (runFirst c (grid1.coords t) (mb0 t) (hb0 t) (mb1 t) (hb1 t) (mb2 t) (hb2 t) (mb3 t) (hb3 t) accM (Memref.isWhole_whole _) ((hkFirst t).mpr h0) (fun h => h1 ((hkLast t).mp h)) (mblk V c 0 t) (mblk V c 1 t) (mblk V c 2 t)).2.1)))) $$ HΦ
    icases HΦ with ⟨HS, Hback⟩
    iapply ((runFirst c (grid1.coords t) (mb0 t) (hb0 t) (mb1 t) (hb1 t) (mb2 t) (hb2 t) (mb3 t) (hb3 t) accM (Memref.isWhole_whole _) ((hkFirst t).mpr h0) (fun h => h1 ((hkLast t).mp h)) (mblk V c 0 t) (mblk V c 1 t) (mblk V c 2 t)).2.2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hback]
    · iapply Hback
      unfold owns; iexists _; isplitr
      swap; · iexact HS
      ipureintro; exact View.read_writes_of_cover _ _ _ _ _ (accFirst_cover c _ _ _ _ _ _ _ _ _ _ _ _ _ _ _ _)
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 4 = 3
    · rw [show (mdat V c).leavesExact 3 t = owns (c : Thread nD τ) (mb3 t) fullShare ((mdat V c).after 3 t) from by
        unfold Dat.leavesExact; rw [live_3 t ((hkLast t).mpr h1)], mafter_3]
      rw [accAt_last V c t h0 h1]
      unfold outLast accLast; (try dsimp only)
      rw [PhiS_castSucc V c t, PhiS_pos V c _ _ hz]
      iintro ⟨HΦ, Ho, ⟨%d0, H0⟩, ⟨%d1, H1⟩, ⟨%d2, H2⟩, ⟨%d3, H3⟩⟩
      ihave HΦ := (PhiAcc_swap c _ (owns (c : Thread nD τ) accM fullShare (accV.read (Elt F) (accV.writes (Elt F) accV.junk (runLast c (grid1.coords t) (mb0 t) (hb0 t) (mb1 t) (hb1 t) (mb2 t) (hb2 t) (mb3 t) (hb3 t) accM (Memref.isWhole_whole _) (fun h => h0 ((hkFirst t).mp h)) ((hkLast t).mpr h1) (mblk V c 0 t) (mblk V c 1 t) (mblk V c 2 t) (accAt V c (t.val - 1) (Nat.lt_of_le_of_lt (Nat.sub_le _ _) t.isLt)).2).2.1)))) $$ HΦ
      icases HΦ with ⟨HS, Hback⟩
      iapply ((runLast c (grid1.coords t) (mb0 t) (hb0 t) (mb1 t) (hb1 t) (mb2 t) (hb2 t) (mb3 t) (hb3 t) accM (Memref.isWhole_whole _) (fun h => h0 ((hkFirst t).mp h)) ((hkLast t).mpr h1) (mblk V c 0 t) (mblk V c 1 t) (mblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hback]
      · iapply Hback
        unfold owns; iexists _; isplitr
        swap; · iexact HS
        ipureintro; exact View.read_writes_of_cover _ _ _ _ _ (accLast_cover c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · rw [Dat.leavesExact_idle (mdat V c) 3 t (idle_3 t (fun h => h1 ((hkLast t).mp h))) (noFlush_3 t (fun h => h1 ((hkLast t).mp h)))]
      rw [accAt_mid V c t h0 h1]
      unfold accMid; (try dsimp only)
      rw [PhiS_castSucc V c t, PhiS_pos V c _ _ hz]
      iintro ⟨HΦ, Ho, ⟨%d0, H0⟩, ⟨%d1, H1⟩, ⟨%d2, H2⟩, ⟨%d3, H3⟩⟩
      ihave HΦ := (PhiAcc_swap c _ (owns (c : Thread nD τ) accM fullShare (accV.read (Elt F) (accV.writes (Elt F) accV.junk (runMid c (grid1.coords t) (mb0 t) (hb0 t) (mb1 t) (hb1 t) (mb2 t) (hb2 t) (mb3 t) (hb3 t) accM (Memref.isWhole_whole _) (fun h => h0 ((hkFirst t).mp h)) (fun h => h1 ((hkLast t).mp h)) (mblk V c 0 t) (mblk V c 1 t) (mblk V c 2 t) (accAt V c (t.val - 1) (Nat.lt_of_le_of_lt (Nat.sub_le _ _) t.isLt)).2).2.1)))) $$ HΦ
      icases HΦ with ⟨HS, Hback⟩
      iapply ((runMid c (grid1.coords t) (mb0 t) (hb0 t) (mb1 t) (hb1 t) (mb2 t) (hb2 t) (mb3 t) (hb3 t) accM (Memref.isWhole_whole _) (fun h => h0 ((hkFirst t).mp h)) (fun h => h1 ((hkLast t).mp h)) (mblk V c 0 t) (mblk V c 1 t) (mblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hback]
      · iapply Hback
        unfold owns; iexists _; isplitr
        swap; · iexact HS
        ipureintro; exact View.read_writes_of_cover _ _ _ _ _ (accMid_cover c _ _ _ _ _ _ _ _ _ _ _ _ _ _ _ _ _)
      isplitl [Ho]; · iexact Ho
      isplitl [H0]; · iexact H0
      isplitl [H1]; · iexact H1
      isplitl [H2]; · iexact H2
      iexists _; iexact H3

/-- The body obligation of the region, at every point. -/
theorem mbody_obligation (c : Dev nD) : BodyObligation (mdat (F := F) V c) (defs₀ (F := F)) Variants.none () Set.univ := fun t => by
  rw [bigSep_W1, bigSep_W1]
  exact msound_body V c t

/-- What the launch hands the region is the invariant before the first point, -/
theorem m_in (c : Dev nD) : Pipeline.ΦA spec1 c ⊢ (mdat V c).Φ 0 := by
  rw [show (mdat V c).Φ 0 = PhiS V c 0 (Nat.zero_le _) from rfl, PhiS_zero V c 0 _ rfl]
  try exact Idealize.SL.BI.Entails.refl _

/-- and after the last point the invariant gives it back, the accumulator's contents forgotten. -/
theorem m_out (c : Dev nD) : (mdat V c).Φ (Fin.last cfg1.N) ⊢ Pipeline.ΦA spec1 c := by
  have ht : (Fin.last cfg1.N).val ≠ 0 := by rw [Fin.val_last]; have : cfg1.N = 128 := N_1; omega
  rw [show (mdat V c).Φ (Fin.last cfg1.N) = PhiS V c (Fin.last cfg1.N).val (Nat.le_of_lt_succ (Fin.last cfg1.N).isLt) from rfl,
    PhiS_pos V c _ _ ht, PhiA_eq]
  unfold PhiAcc
  iintro ⟨⟨HA, HB, HC, HD, HS⟩, Hg⟩
  isplitr [Hg]
  · isplitl [HA]; · iexact HA
    isplitl [HB]; · iexact HB
    isplitl [HC]; · iexact HC
    isplitl [HD]; · iexact HD
    iexists _; iexact HS
  iexact Hg

end

end Cert.Kernel.Run

end
-- ==== Proof.Word.Run.lean ====
/-
  The whole program as its three items in order — the quantiser region, the one host operation (the bias reshaped to a row),
  the matrix-product region — at any float instance. The unscoped buffers' contents are followed from the launch memory
  through the items: a region changes its windows' arrays to what its write-backs leave and nothing else, a host operation
  writes its own result. Each region is entered from "every unscoped buffer at the boundary's contents, the generator register at
  some state, nothing owed" and left at the same with the next contents. The run ends with every unscoped buffer at the last
  boundary's contents: the arguments as launched (the frame), and the result array at what the second region's write-backs
  leave.
-/
import proofs.«181300_j51196010168686_1_alg».proof.Proof.Word.QuantRegion
import proofs.«181300_j51196010168686_1_alg».proof.Proof.Word.MatmulRegion

-- membership in a rectangle with axes of several thousand entries recurses once per coordinate
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the quantiser region: its arrays at what the pipeline leaves, every other buffer as entered. -/
def W1 (c : Dev nD) : Valuation τ sig (Elt F) :=
  Pipeline.withArrays spec0 c (W0 m ρ c) fun w => (qdat (V0 m ρ) c).arrAt w cfg0.N
theorem W1_arr (c : Dev nD) (w : Fin cfg0.W) :
    W1 m ρ c (Proc.devRef .tc (Pipeline.arrRef spec0 w)) = (qdat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (qdat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operation. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the matrix-product region. -/
def W3 (c : Dev nD) : Valuation τ sig (Elt F) :=
  Pipeline.withArrays spec1 c (W2 m ρ c) fun w => (mdat (V2 m ρ) c).arrAt w cfg1.N
theorem W3_arr (c : Dev nD) (w : Fin cfg1.W) :
    W3 m ρ c (Proc.devRef .tc (Pipeline.arrRef spec1 w)) = (mdat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (mdat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host operation writes only its own result. -/
theorem W2_of_ne (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The arguments end as launched -/

theorem W3_main_arg0 (c : Dev nD) : W3 m ρ c (Proc.devRef .tc main_arg0) = m ((c : Thread nD τ).loc main_arg0) :=
  calc W3 m ρ c (Proc.devRef .tc main_arg0)
    _ = (mdat (V2 m ρ) c).arrAt 0 cfg1.N := W3_arr m ρ c 0
    _ = W2 m ρ c (Proc.devRef .tc main_arg0) := ((mdat (V2 m ρ) c).arrAt_in 0 rfl _).trans (mA_eq (V2 m ρ) c 0)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = (qdat (V0 m ρ) c).arrAt 0 cfg0.N := W1_arr m ρ c 0
    _ = W0 m ρ c (Proc.devRef .tc main_arg1) := ((qdat (V0 m ρ) c).arrAt_in 0 rfl _).trans (qA_eq (V0 m ρ) c 0)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- The result array ends at what the second region's write-backs leave. -/
theorem W3_main_v2 (c : Dev nD) : W3 m ρ c (Proc.devRef .tc main_v2) = (mdat (V2 m ρ) c).arrAt 3 cfg1.N := W3_arr m ρ c 3

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => qdat (V0 m ρ) c
  | ⟨1, _⟩ => fun c => mdat (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The quantiser region: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (qbody_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: entered from every unscoped buffer at `W2`, left at `W3`. The invariant before the first
    point is the class's, and after the last point gives it back with the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (mbody_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    have hback : (mdat (V2 m ρ) c).Φ (Fin.last cfg1.N) ⊢ (iprop(Pipeline.scopedRest spec1 c ∗ ∃ r, prngReg c r) : sProp 𝕄) := by
      have h := m_out (V2 m ρ) c
      unfold Pipeline.ΦA at h
      exact h
    rw [Pipeline.ownSems0_none, show (pdats m ρ 1 c).Φ (Fin.last _) = (mdat (V2 m ρ) c).Φ (Fin.last cfg1.N) from rfl]
    refine hback.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting, and
    the final memory holds every unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The run with the result named: the result array at what the second region's write-backs leave, the arguments as launched. -/
theorem run_result : θ_run defs (onTc (τ := τ) (main (F := F))) ⟨m, fun _ => 0, ρ⟩ (fun r => ∀ c : Dev nD,
      r.2.mem ((c.tc : Thread nD τ).loc main_v2) = (mdat (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Run

end
-- ==== Proof.QuantRegion.lean ====
/-
  The first kernel region (the weight quantiser) as one step of the pipeline, at any float instance.
  The region walks the 16 row blocks of the weight matrix (256 rows each, all 4096 columns). At block `t` the body reads the
  block, and writes into the output window's buffer one function of it: the quantise-dequantise payload, transposed
  (4096 × 256). So after the body the output buffer holds that payload of the input block, whatever it held before, and the
  input buffer is as it was. Nothing is carried from one block to the next.
-/
import proofs.«181300_j51196010168686_1_alg».proof.Proof.Gen.KernelIdeal.Launch
import proofs.«181300_j51196010168686_1_alg».proof.Proof.Gen.KernelIdeal.Skeleton
import proofs.«181300_j51196010168686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of several thousand entries recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
-- the buffer contents when the region is entered
variable (V : (c : Dev nD) → (b : Ref sig .tc) → Buf (Elt F) ((c : Thread nD τ).loc b))

/-- Window `w`'s block at point `t`, read off its array as the region finds it. -/
def qblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight window's staging buffer holds its block at every point, for any proof data over the entry contents whose body
    leaves the block in place. -/
theorem qbefore_of {c : Dev nD} (dat : Dat τ (Elt F) Unit ℕ (UR sig nD τ) ℕ cfg0 c) (hA : dat.A 0 = V c (Pipeline.arrRef spec0 0))
    (hafter : ∀ t, dat.after 0 t = qblk V c 0 t) (t : Fin cfg0.N) (d) : dat.before 0 t d = qblk V c 0 t :=
  (dat.before_in_eq_fetched 0 rfl (fun _ => rfl) (fun _ _ _ => rfl) (fun t => by rw [hafter]; unfold Dat.blockOf qblk; rw [hA]; try rfl) t d).trans
    (by unfold Dat.fetched Dat.blockOf qblk; rw [hA]; try rfl)

/-- The whole input block and the whole output block as rectangles. -/
abbrev qrIn : Rect S256x4096 := Rect.unit (s := S256x4096) ![0, 0] S256x4096.size inb_S256x4096_S256x4096_0_0
abbrev qrOut : Rect S4096x256 := Rect.unit (s := S4096x256) ![0, 0] S4096x256.size inb_S4096x256_S4096x256_0_0

/-- What the body leaves in the output buffer: its one store, of the payload of the loaded block. -/
def qout (x0 : Vec F S256x4096 .f32) : Vec F S4096x256 .bf16 :=
  View.canon [⟨qrOut, k0_pay1 (View.ld x0 qrIn)⟩]

/-- The one store covers the buffer. -/
theorem qcover (p0 : Vec F S4096x256 .bf16) (y : S4096x256.Idx) :
    ∃ pc ∈ ([⟨qrOut, p0⟩] : List (View.Piece (Elt F) S4096x256 .bf16)), y ∈ pc.1.set :=
  View.cover_of_tiled [⟨qrOut, p0⟩] S4096x256.size (by rfl) y

set_option maxHeartbeats 1000000 in
/-- The body on whole buffers: the input's at `x0`, the output's at anything; it ends with the input's unchanged and the
    output's at `qout x0`. -/
theorem qkernel (c : Dev nD) (E : Set ℕ) (i : grid0.Coords) (arg1 : Memref sig .tc .vmem S256x4096 .f32) (harg1 : arg1.IsWhole)
    (arg2 : Memref sig .tc .vmem S4096x256 .bf16) (harg2 : arg2.IsWhole)
    (x0 : Vec F S256x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (qout x0)) -∗ K ⟨⟩))
      ⊢ wp frame (wpE (defs₀ (F := F)) Variants.none c none) E (cc0_quant_kernel i arg1 harg1 arg2 harg2) K := by
  simp only [cc0_quant_kernel_eq_skeleton]; unfold cc0_quant_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (qcover _)

/-- The proof data of the region: the arrays as found; after the body the input's buffer at its block and the output's at
    the payload of that block; the scoped rest and the generator register untouched; nothing owed. -/
def qdat (c : Dev nD) : Dat τ (Elt F) Unit ℕ (UR sig nD τ) ℕ cfg0 c where
  A w := V c (Pipeline.arrRef spec0 w)
  after w t := match w with
    | ⟨0, _⟩ => qblk V c 0 t
    | ⟨1, _⟩ => qout (qblk V c 0 t)
  Φ _ := Pipeline.ΦA spec0 c
  q _ := fullShare
  owed _ := 0

theorem qA_eq (c : Dev nD) (w : Fin cfg0.W) : (qdat V c).A w = V c (Pipeline.arrRef spec0 w) := by
  dsimp only [qdat]
theorem qafter_0 (c : Dev nD) (t : Fin cfg0.N) : (qdat V c).after 0 t = qblk V c 0 t := by dsimp only [qdat]
theorem qafter_1 (c : Dev nD) (t : Fin cfg0.N) : (qdat V c).after 1 t = qout (qblk V c 0 t) := by dsimp only [qdat]
theorem qbefore_0 (c : Dev nD) (t : Fin cfg0.N) (d) : (qdat V c).before 0 t d = qblk V c 0 t :=
  qbefore_of V (qdat V c) (qA_eq V c 0) (qafter_0 V c) t d

/-- What the body is called with at point `t`, -/
def qbodyPre (c : Dev nD) (t : Fin cfg0.N) : sProp 𝕄 :=
  iprop((qdat V c).Φ t.castSucc ∗ (qdat V c).owesAt () t.castSucc
    ∗ (∃ d, owns (c : Thread nD τ) (st0_0 t) fullShare ((qdat V c).before 0 t d))
    ∗ (∃ d, owns (c : Thread nD τ) (st0_1 t) fullShare ((qdat V c).before 1 t d)))

/-- and what it returns. -/
def qbodyPost (c : Dev nD) (t : Fin cfg0.N) : sProp 𝕄 :=
  iprop((qdat V c).Φ t.succ ∗ (qdat V c).owesAt () t.succ
    ∗ owns (c : Thread nD τ) (st0_0 t) fullShare ((qdat V c).after 0 t)
    ∗ owns (c : Thread nD τ) (st0_1 t) fullShare ((qdat V c).after 1 t))

theorem qsound_body (c : Dev nD) (t : Fin cfg0.N) :
    qbodyPre V c t ⊢ wp frame (wpE (defs₀ (F := F)) Variants.none c none) Set.univ (bodyAt0 t) (fun _ => qbodyPost V c t) := by
  unfold qbodyPre qbodyPost bodyAt0
  simp only [qbefore_0]
  rw [show (qdat V c).Φ t.succ = (qdat V c).Φ t.castSucc from rfl,
    show (qdat V c).owesAt () t.succ = (qdat V c).owesAt () t.castSucc from rfl,
    qafter_0, qafter_1]
  iintro ⟨HΦ, Ho, ⟨%d0, H0⟩, ⟨%d1, H1⟩⟩
  iapply (qkernel c Set.univ _ _ _ _ _ (qblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the region, at every point. -/
theorem qbody_obligation (c : Dev nD) : BodyObligation (qdat (F := F) V c) (defs₀ (F := F)) Variants.none () Set.univ := fun t => by
  rw [bigSep_W0, bigSep_W0]
  exact qsound_body V c t

end

end Cert.KernelIdeal.Run

end
-- ==== Proof.MatmulRuns.lean ====
/-
  What the three runs of the second kernel region (the K-blocked matrix product) share, at any float instance.
  The region's grid is 8 × 4 × 4 (row block, column block, K block; the K block runs fastest), 128 points in all, so the K
  block of point `t` is `t mod 4`. The body zeroes its accumulator scratch when the K block is 0, always adds the product of
  the point's x block and weight block to it, and when the K block is 3 stores accumulator + bias into the output window.
  So there are three control cases: first K block, middle K blocks, last K block. Here: the two conditions in closed
  form over the grid, where the output window is idle, the point's buffers, and the region invariant with the scratch's
  contents as a parameter.
-/
import proofs.«181300_j51196010168686_1_alg».proof.Proof.Gen.KernelIdeal.Launch
import proofs.«181300_j51196010168686_1_alg».proof.Proof.Gen.KernelIdeal.Skeleton
import proofs.«181300_j51196010168686_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with axes of several thousand entries recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions -/

/-- "The K block is 0", as the body computes it from the grid coordinates. -/
abbrev kFirst (i : grid1.Coords) : Prop := (Scalar.cmpi .ne (Scalar.extui (Scalar.cmpi .eq (BitVec.ofNat 32 (i 2).val) 0#32)) 0#32) = 1#1
theorem hkFirst : ∀ t : Fin cfg1.N, kFirst (grid1.coords t) ↔ t.val % 4 = 0 :=
  (by decide +kernel : ∀ t : Fin grid1.N, kFirst (grid1.coords t) ↔ t.val % 4 = 0)

/-- "The K block is 3". -/
abbrev kLast (i : grid1.Coords) : Prop := k1_cond2 i = 1#1
theorem hkLast : ∀ t : Fin cfg1.N, kLast (grid1.coords t) ↔ t.val % 4 = 3 :=
  (by decide +kernel : ∀ t : Fin grid1.N, kLast (grid1.coords t) ↔ t.val % 4 = 3)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Unless the K block is 3 the output window is idle and is not written back. -/
theorem idle_3 : ∀ t : Fin cfg1.N, ¬kLast (grid1.coords t) → cfg1.idle 3 (grid1.coords t) = true := by decide +kernel
theorem noFlush_3 : ∀ t : Fin cfg1.N, ¬kLast (grid1.coords t) → (cfg1.win 3).flush t = false := by decide +kernel
theorem live_3 : ∀ t : Fin cfg1.N, kLast (grid1.coords t) → cfg1.idle 3 (grid1.coords t) = false := by decide +kernel

/-! ## The point's buffers -/

abbrev mb0 (t : Fin cfg1.N) : Memref sig .tc .vmem S1024x1024 .f32 := win1_0.stage (cfg1.slots t 0)
abbrev hb0 (t : Fin cfg1.N) : (mb0 t).IsWhole := hstage1_0 ((cfg1.slots t 0).cast nbuf1_0)
abbrev mb1 (t : Fin cfg1.N) : Memref sig .tc .vmem S1024x1024 .bf16 := win1_1.stage (cfg1.slots t 1)
abbrev hb1 (t : Fin cfg1.N) : (mb1 t).IsWhole := hstage1_1 ((cfg1.slots t 1).cast nbuf1_1)
abbrev mb2 (t : Fin cfg1.N) : Memref sig .tc .vmem S1x1024 .f32 := win1_2.stage (cfg1.slots t 2)
abbrev hb2 (t : Fin cfg1.N) : (mb2 t).IsWhole := hstage1_2 ((cfg1.slots t 2).cast nbuf1_2)
abbrev mb3 (t : Fin cfg1.N) : Memref sig .tc .vmem S1024x1024 .f32 := win1_3.stage (cfg1.slots t 3)
abbrev hb3 (t : Fin cfg1.N) : (mb3 t).IsWhole := hstage1_3 ((cfg1.slots t 3).cast nbuf1_3)
/-- The accumulator scratch, a whole buffer of the kernel's own, and the views contents are stated through. -/
abbrev accM : Memref sig .tc .vmem S1024x1024 .f32 := Memref.whole cc1_scratch0
abbrev accV : View sig .tc .vmem S1024x1024 .f32 := accM.view
abbrev outV : View sig .tc .vmem S1024x1024 .f32 := (Memref.whole cc1_stg3_0 : Memref sig .tc .vmem S1024x1024 .f32).view

/-! ## The region invariant, the accumulator's part a parameter -/

/-- The scoped buffers the region does not stage — the first region's four staging buffers, each at some contents, and the
    accumulator as `S` says — beside the generator register at some state. -/
def PhiAcc (c : Dev nD) (S : sProp 𝕄) : sProp 𝕄 :=
  iprop(((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ S) ∗ (∃ r, prngReg c r))

/-- With the accumulator at anything it is the class's invariant. -/
theorem PhiA_eq (c : Dev nD) :
    (Pipeline.ΦA spec1 c : sProp 𝕄) = PhiAcc c (iprop(∃ d, owns (c : Thread nD τ) accM fullShare d)) := by
  unfold Pipeline.ΦA PhiAcc; rw [scopedRest1_eq]; simp only [accM, owns_whole]; try rfl

/-- The accumulator's part taken out of the invariant, and put back. -/
theorem PhiAcc_take (c : Dev nD) (S : sProp 𝕄) : PhiAcc c S ⊢ iprop(S ∗ (S -∗ PhiAcc c S)) := by
  unfold PhiAcc
  iintro ⟨⟨HA, HB, HC, HD, HS⟩, Hg⟩
  isplitl [HS]; · iexact HS
  iintro HS
  isplitr [Hg]
  · isplitl [HA]; · iexact HA
    isplitl [HB]; · iexact HB
    isplitl [HC]; · iexact HC
    isplitl [HD]; · iexact HD
    iexact HS
  iexact Hg

/-- The accumulator's part exchanged. -/
theorem PhiAcc_swap (c : Dev nD) (S S' : sProp 𝕄) : iprop(PhiAcc c S) ⊢ iprop(S ∗ (S' -∗ PhiAcc c S')) := by
  unfold PhiAcc
  iintro ⟨⟨HA, HB, HC, HD, HS⟩, Hg⟩
  isplitl [HS]; · iexact HS
  iintro HS
  isplitr [Hg]
  · isplitl [HA]; · iexact HA
    isplitl [HB]; · iexact HB
    isplitl [HC]; · iexact HC
    isplitl [HD]; · iexact HD
    iexact HS
  iexact Hg

end Cert.KernelIdeal.Run

end
-- ==== Proof.MatmulRunA.lean ====
/-
  The matrix-product body when the K block is 0: the accumulator, whatever it held, is first set to zero and then receives
  zero + (x block · weight block); the output window is not touched and its buffer is handed back as it came. The pieces the
  accumulator ends with are found by running the body.
-/
import proofs.«181300_j51196010168686_1_alg».proof.Proof.MatmulRuns

-- membership in a rectangle with axes of several thousand entries recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output window's buffer (none) and in the accumulator, in the first-K-block
    case, with the proof that the body runs from the inputs' buffers at `x0 x1 x2`, the output's at `xi3` and the
    accumulator at anything to the same buffers with the accumulator's pieces written. -/
noncomputable def runFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : kFirst i) (hc1 : ¬kLast i)
    (x0 : Vec F S1024x1024 .f32) (x1 : Vec F S1024x1024 .bf16) (x2 : Vec F S1x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc1_matmul_kernel i arg3 harg3 arg4 harg4 arg5 harg5 arg6 harg6 arg7 harg7) K } := by
  refine ⟨[], ?_, fun xi3 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Run

end
-- ==== Proof.MatmulRunB.lean ====
/-
  The matrix-product body when the K block is 1 or 2: the accumulator, holding what the point before left, receives
  itself + (x block · weight block); the output window is not touched.
-/
import proofs.«181300_j51196010168686_1_alg».proof.Proof.MatmulRunA

-- membership in a rectangle with axes of several thousand entries recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces in the middle-K-block case: none for the output window; the accumulator's found by running the body from the
    accumulator at `xs`. -/
noncomputable def runMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : ¬kLast i)
    (x0 : Vec F S1024x1024 .f32) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS)) -∗ K ⟨⟩))
          ⊢ wp frame (wpE (defs₀ (F := F)) Variants.none c none) E (cc1_matmul_kernel i arg3 harg3 arg4 harg4 arg5 harg5 arg6 harg6 arg7 harg7) K } := by
  refine ⟨[], ?_, fun xi3 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Run

end
-- ==== Proof.MatmulRunC.lean ====
/-
  The matrix-product body when the K block is 3: the accumulator receives itself + (x block · weight block), and the output
  window's buffer, whatever it held, receives that new accumulator + the bias row.
-/
import proofs.«181300_j51196010168686_1_alg».proof.Proof.MatmulRunB

-- membership in a rectangle with axes of several thousand entries recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces in the last-K-block case, both found by running the body from the accumulator at `xs` and the output's buffer
    at anything. -/
noncomputable def runLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : kLast i)
    (x0 : Vec F S1024x1024 .f32) (x1 : Vec F S1024x1024 .bf16) (x2 : Vec F S1x1024 .f32) (xs : Vec F S1024x1024 .f32) :
    Σ' (L3 : List (View.Piece (Elt F) S1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS)) -∗ K ⟨⟩))
          ⊢ wp frame (wpE (defs₀ (F := F)) Variants.none c none) E (cc1_matmul_kernel i arg3 harg3 arg4 harg4 arg5 harg5 arg6 harg6 arg7 harg7) K } := by
  refine ⟨?_, ?_, fun E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Run

end
-- ==== Proof.MatmulRegion.lean ====
/-
  The second kernel region (the K-blocked matrix product) as a pipeline step, at any float instance: what the accumulator
  scratch and the output window's buffer hold after each of the 128 grid points, by recursion on the point — at a point
  whose K block is 0 what the first-case run leaves from the point's blocks alone; at a later K block what the middle (or
  last) run leaves from the point's blocks and the accumulator the point before left —, the region invariant (the accumulator
  at exactly that), the proof data, and the body obligation at every point by cases on the K block.
-/
import proofs.«181300_j51196010168686_1_alg».proof.Proof.MatmulRunC

-- membership in a rectangle with axes of several thousand entries recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- First K block: the output window's buffer is not stored into (a placeholder nothing reads), -/
def outFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : kFirst i) (hc1 : ¬kLast i) (x0 : Vec F S1024x1024 .f32) (x1 : Vec F S1024x1024 .bf16) (x2 : Vec F S1x1024 .f32) : Vec F S1024x1024 .f32 :=
  outV.read (Elt F) (outV.writes (Elt F) outV.junk (runFirst c i arg3 harg3 arg4 harg4 arg5 harg5 arg6 harg6 arg7 harg7 hc0 hc1 x0 x1 x2).1)
/-- and the accumulator's pieces cover it, -/
theorem accFirst_cover (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : kFirst i) (hc1 : ¬kLast i) (x0 : Vec F S1024x1024 .f32) (x1 : Vec F S1024x1024 .bf16) (x2 : Vec F S1x1024 .f32) (y : S1024x1024.Idx) :
    ∃ pc ∈ (runFirst c i arg3 harg3 arg4 harg4 arg5 harg5 arg6 harg6 arg7 harg7 hc0 hc1 x0 x1 x2).2.1, y ∈ pc.1.set :=
  View.cover_of_tiledL (runFirst c i arg3 harg3 arg4 harg4 arg5 harg5 arg6 harg6 arg7 harg7 hc0 hc1 x0 x1 x2).2.1 S1024x1024.size (by sl_kernel_rfl) y
/-- so it ends at them read back. -/
def accFirst (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : kFirst i) (hc1 : ¬kLast i) (x0 : Vec F S1024x1024 .f32) (x1 : Vec F S1024x1024 .bf16) (x2 : Vec F S1x1024 .f32) : Vec F S1024x1024 .f32 :=
  accV.read (Elt F) (accV.writes (Elt F) accV.junk (runFirst c i arg3 harg3 arg4 harg4 arg5 harg5 arg6 harg6 arg7 harg7 hc0 hc1 x0 x1 x2).2.1)

/-- Middle K blocks: the same over the accumulator `xs` the point before left. -/
def outMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : ¬kLast i) (x0 : Vec F S1024x1024 .f32) (x1 : Vec F S1024x1024 .bf16) (x2 : Vec F S1x1024 .f32) (xs : Vec F S1024x1024 .f32) : Vec F S1024x1024 .f32 :=
  outV.read (Elt F) (outV.writes (Elt F) outV.junk (runMid c i arg3 harg3 arg4 harg4 arg5 harg5 arg6 harg6 arg7 harg7 hc0 hc1 x0 x1 x2 xs).1)
theorem accMid_cover (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : ¬kLast i) (x0 : Vec F S1024x1024 .f32) (x1 : Vec F S1024x1024 .bf16) (x2 : Vec F S1x1024 .f32) (xs : Vec F S1024x1024 .f32) (y : S1024x1024.Idx) :
    ∃ pc ∈ (runMid c i arg3 harg3 arg4 harg4 arg5 harg5 arg6 harg6 arg7 harg7 hc0 hc1 x0 x1 x2 xs).2.1, y ∈ pc.1.set :=
  View.cover_of_tiledL (runMid c i arg3 harg3 arg4 harg4 arg5 harg5 arg6 harg6 arg7 harg7 hc0 hc1 x0 x1 x2 xs).2.1 S1024x1024.size (by sl_kernel_rfl) y
def accMid (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : ¬kLast i) (x0 : Vec F S1024x1024 .f32) (x1 : Vec F S1024x1024 .bf16) (x2 : Vec F S1x1024 .f32) (xs : Vec F S1024x1024 .f32) : Vec F S1024x1024 .f32 :=
  accV.read (Elt F) (accV.writes (Elt F) accV.junk (runMid c i arg3 harg3 arg4 harg4 arg5 harg5 arg6 harg6 arg7 harg7 hc0 hc1 x0 x1 x2 xs).2.1)

/-- Last K block: the output window's buffer is stored whole, -/
theorem outLast_cover (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : kLast i) (x0 : Vec F S1024x1024 .f32) (x1 : Vec F S1024x1024 .bf16) (x2 : Vec F S1x1024 .f32) (xs : Vec F S1024x1024 .f32) (y : S1024x1024.Idx) :
    ∃ pc ∈ (runLast c i arg3 harg3 arg4 harg4 arg5 harg5 arg6 harg6 arg7 harg7 hc0 hc1 x0 x1 x2 xs).1, y ∈ pc.1.set :=
  View.cover_of_tiledL (runLast c i arg3 harg3 arg4 harg4 arg5 harg5 arg6 harg6 arg7 harg7 hc0 hc1 x0 x1 x2 xs).1 S1024x1024.size (by sl_kernel_rfl) y
def outLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : kLast i) (x0 : Vec F S1024x1024 .f32) (x1 : Vec F S1024x1024 .bf16) (x2 : Vec F S1x1024 .f32) (xs : Vec F S1024x1024 .f32) : Vec F S1024x1024 .f32 :=
  outV.read (Elt F) (outV.writes (Elt F) outV.junk (runLast c i arg3 harg3 arg4 harg4 arg5 harg5 arg6 harg6 arg7 harg7 hc0 hc1 x0 x1 x2 xs).1)
/-- and so is the accumulator. -/
theorem accLast_cover (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : kLast i) (x0 : Vec F S1024x1024 .f32) (x1 : Vec F S1024x1024 .bf16) (x2 : Vec F S1x1024 .f32) (xs : Vec F S1024x1024 .f32) (y : S1024x1024.Idx) :
    ∃ pc ∈ (runLast c i arg3 harg3 arg4 harg4 arg5 harg5 arg6 harg6 arg7 harg7 hc0 hc1 x0 x1 x2 xs).2.1, y ∈ pc.1.set :=
  View.cover_of_tiledL (runLast c i arg3 harg3 arg4 harg4 arg5 harg5 arg6 harg6 arg7 harg7 hc0 hc1 x0 x1 x2 xs).2.1 S1024x1024.size (by sl_kernel_rfl) y
def accLast (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : kLast i) (x0 : Vec F S1024x1024 .f32) (x1 : Vec F S1024x1024 .bf16) (x2 : Vec F S1x1024 .f32) (xs : Vec F S1024x1024 .f32) : Vec F S1024x1024 .f32 :=
  accV.read (Elt F) (accV.writes (Elt F) accV.junk (runLast c i arg3 harg3 arg4 harg4 arg5 harg5 arg6 harg6 arg7 harg7 hc0 hc1 x0 x1 x2 xs).2.1)

section
-- the buffer contents when the region is entered
variable (V : (c : Dev nD) → (b : Ref sig .tc) → Buf (Elt F) ((c : Thread nD τ).loc b))

/-- Window `w`'s block at point `t`, read off its array as the region finds it. -/
def mblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (the bias row's block is fetched only
    when the column block changes, and is still in place at the other points). -/
theorem mbefore0_of {c : Dev nD} (dat : Dat τ (Elt F) Unit ℕ (UR sig nD τ) ℕ cfg1 c) (hA : dat.A 0 = V c (Pipeline.arrRef spec1 0))
    (hafter : ∀ t, dat.after 0 t = mblk V c 0 t) (t : Fin cfg1.N) (d) : dat.before 0 t d = mblk V c 0 t :=
  (dat.before_in_eq_fetched 0 rfl (fun _ => rfl) (fun _ _ _ => rfl) (fun t => by rw [hafter]; unfold Dat.blockOf mblk; rw [hA]; try rfl) t d).trans
    (by unfold Dat.fetched Dat.blockOf mblk; rw [hA]; try rfl)
theorem mbefore1_of {c : Dev nD} (dat : Dat τ (Elt F) Unit ℕ (UR sig nD τ) ℕ cfg1 c) (hA : dat.A 1 = V c (Pipeline.arrRef spec1 1))
    (hafter : ∀ t, dat.after 1 t = mblk V c 1 t) (t : Fin cfg1.N) (d) : dat.before 1 t d = mblk V c 1 t :=
  (dat.before_in_eq_fetched 1 rfl (fun _ => rfl) (fun _ _ _ => rfl) (fun t => by rw [hafter]; unfold Dat.blockOf mblk; rw [hA]; try rfl) t d).trans
    (by unfold Dat.fetched Dat.blockOf mblk; rw [hA]; try rfl)
theorem mbefore2_of {c : Dev nD} (dat : Dat τ (Elt F) Unit ℕ (UR sig nD τ) ℕ cfg1 c) (hA : dat.A 2 = V c (Pipeline.arrRef spec1 2))
    (hafter : ∀ t, dat.after 2 t = mblk V c 2 t) (t : Fin cfg1.N) (d) : dat.before 2 t d = mblk V c 2 t :=
  (dat.before_in_eq_fetched 2 rfl (fun _ => rfl) (fun _ _ _ => rfl) (fun t => by rw [hafter]; unfold Dat.blockOf mblk; rw [hA]; try rfl) t d).trans
    (by unfold Dat.fetched Dat.blockOf mblk; rw [hA]; try rfl)

/-! ## Point by point -/

/-- What the output window's buffer and the accumulator hold after the body at position `n`. -/
def accAt (c : Dev nD) : (n : ℕ) → n < cfg1.N → Vec F S1024x1024 .f32 × Vec F S1024x1024 .f32
  | 0, hn => (outFirst c (grid1.coords ⟨0, hn⟩) (mb0 ⟨0, hn⟩) (hb0 ⟨0, hn⟩) (mb1 ⟨0, hn⟩) (hb1 ⟨0, hn⟩) (mb2 ⟨0, hn⟩) (hb2 ⟨0, hn⟩) (mb3 ⟨0, hn⟩) (hb3 ⟨0, hn⟩) accM (Memref.isWhole_whole _) ((hkFirst ⟨0, hn⟩).mpr (Nat.zero_mod _)) (fun h => (fun h => by (try dsimp only at h); omega) ((hkLast ⟨0, hn⟩).mp h)) (mblk V c 0 ⟨0, hn⟩) (mblk V c 1 ⟨0, hn⟩) (mblk V c 2 ⟨0, hn⟩),
      accFirst c (grid1.coords ⟨0, hn⟩) (mb0 ⟨0, hn⟩) (hb0 ⟨0, hn⟩) (mb1 ⟨0, hn⟩) (hb1 ⟨0, hn⟩) (mb2 ⟨0, hn⟩) (hb2 ⟨0, hn⟩) (mb3 ⟨0, hn⟩) (hb3 ⟨0, hn⟩) accM (Memref.isWhole_whole _) ((hkFirst ⟨0, hn⟩).mpr (Nat.zero_mod _)) (fun h => (fun h => by (try dsimp only at h); omega) ((hkLast ⟨0, hn⟩).mp h)) (mblk V c 0 ⟨0, hn⟩) (mblk V c 1 ⟨0, hn⟩) (mblk V c 2 ⟨0, hn⟩))
  | n + 1, hn =>
    if h0 : (n + 1) % 4 = 0 then
      if h1 : (n + 1) % 4 = 3 then
        False.elim (by omega)
      else
        (outFirst c (grid1.coords ⟨n + 1, hn⟩) (mb0 ⟨n + 1, hn⟩) (hb0 ⟨n + 1, hn⟩) (mb1 ⟨n + 1, hn⟩) (hb1 ⟨n + 1, hn⟩) (mb2 ⟨n + 1, hn⟩) (hb2 ⟨n + 1, hn⟩) (mb3 ⟨n + 1, hn⟩) (hb3 ⟨n + 1, hn⟩) accM (Memref.isWhole_whole _) ((hkFirst ⟨n + 1, hn⟩).mpr h0) (fun h => h1 ((hkLast ⟨n + 1, hn⟩).mp h)) (mblk V c 0 ⟨n + 1, hn⟩) (mblk V c 1 ⟨n + 1, hn⟩) (mblk V c 2 ⟨n + 1, hn⟩),
          accFirst c (grid1.coords ⟨n + 1, hn⟩) (mb0 ⟨n + 1, hn⟩) (hb0 ⟨n + 1, hn⟩) (mb1 ⟨n + 1, hn⟩) (hb1 ⟨n + 1, hn⟩) (mb2 ⟨n + 1, hn⟩) (hb2 ⟨n + 1, hn⟩) (mb3 ⟨n + 1, hn⟩) (hb3 ⟨n + 1, hn⟩) accM (Memref.isWhole_whole _) ((hkFirst ⟨n + 1, hn⟩).mpr h0) (fun h => h1 ((hkLast ⟨n + 1, hn⟩).mp h)) (mblk V c 0 ⟨n + 1, hn⟩) (mblk V c 1 ⟨n + 1, hn⟩) (mblk V c 2 ⟨n + 1, hn⟩))
    else
      if h1 : (n + 1) % 4 = 3 then
        (outLast c (grid1.coords ⟨n + 1, hn⟩) (mb0 ⟨n + 1, hn⟩) (hb0 ⟨n + 1, hn⟩) (mb1 ⟨n + 1, hn⟩) (hb1 ⟨n + 1, hn⟩) (mb2 ⟨n + 1, hn⟩) (hb2 ⟨n + 1, hn⟩) (mb3 ⟨n + 1, hn⟩) (hb3 ⟨n + 1, hn⟩) accM (Memref.isWhole_whole _) (fun h => h0 ((hkFirst ⟨n + 1, hn⟩).mp h)) ((hkLast ⟨n + 1, hn⟩).mpr h1) (mblk V c 0 ⟨n + 1, hn⟩) (mblk V c 1 ⟨n + 1, hn⟩) (mblk V c 2 ⟨n + 1, hn⟩) (accAt c n (Nat.lt_of_succ_lt hn)).2,
          accLast c (grid1.coords ⟨n + 1, hn⟩) (mb0 ⟨n + 1, hn⟩) (hb0 ⟨n + 1, hn⟩) (mb1 ⟨n + 1, hn⟩) (hb1 ⟨n + 1, hn⟩) (mb2 ⟨n + 1, hn⟩) (hb2 ⟨n + 1, hn⟩) (mb3 ⟨n + 1, hn⟩) (hb3 ⟨n + 1, hn⟩) accM (Memref.isWhole_whole _) (fun h => h0 ((hkFirst ⟨n + 1, hn⟩).mp h)) ((hkLast ⟨n + 1, hn⟩).mpr h1) (mblk V c 0 ⟨n + 1, hn⟩) (mblk V c 1 ⟨n + 1, hn⟩) (mblk V c 2 ⟨n + 1, hn⟩) (accAt c n (Nat.lt_of_succ_lt hn)).2)
      else
        (outMid c (grid1.coords ⟨n + 1, hn⟩) (mb0 ⟨n + 1, hn⟩) (hb0 ⟨n + 1, hn⟩) (mb1 ⟨n + 1, hn⟩) (hb1 ⟨n + 1, hn⟩) (mb2 ⟨n + 1, hn⟩) (hb2 ⟨n + 1, hn⟩) (mb3 ⟨n + 1, hn⟩) (hb3 ⟨n + 1, hn⟩) accM (Memref.isWhole_whole _) (fun h => h0 ((hkFirst ⟨n + 1, hn⟩).mp h)) (fun h => h1 ((hkLast ⟨n + 1, hn⟩).mp h)) (mblk V c 0 ⟨n + 1, hn⟩) (mblk V c 1 ⟨n + 1, hn⟩) (mblk V c 2 ⟨n + 1, hn⟩) (accAt c n (Nat.lt_of_succ_lt hn)).2,
          accMid c (grid1.coords ⟨n + 1, hn⟩) (mb0 ⟨n + 1, hn⟩) (hb0 ⟨n + 1, hn⟩) (mb1 ⟨n + 1, hn⟩) (hb1 ⟨n + 1, hn⟩) (mb2 ⟨n + 1, hn⟩) (hb2 ⟨n + 1, hn⟩) (mb3 ⟨n + 1, hn⟩) (hb3 ⟨n + 1, hn⟩) accM (Memref.isWhole_whole _) (fun h => h0 ((hkFirst ⟨n + 1, hn⟩).mp h)) (fun h => h1 ((hkLast ⟨n + 1, hn⟩).mp h)) (mblk V c 0 ⟨n + 1, hn⟩) (mblk V c 1 ⟨n + 1, hn⟩) (mblk V c 2 ⟨n + 1, hn⟩) (accAt c n (Nat.lt_of_succ_lt hn)).2)

theorem accAt_first (c : Dev nD) (t : Fin cfg1.N) (h0 : t.val % 4 = 0) (h1 : ¬t.val % 4 = 3) :
    accAt V c t.val t.isLt = (outFirst c (grid1.coords t) (mb0 t) (hb0 t) (mb1 t) (hb1 t) (mb2 t) (hb2 t) (mb3 t) (hb3 t) accM (Memref.isWhole_whole _) ((hkFirst t).mpr h0) (fun h => h1 ((hkLast t).mp h)) (mblk V c 0 t) (mblk V c 1 t) (mblk V c 2 t),
      accFirst c (grid1.coords t) (mb0 t) (hb0 t) (mb1 t) (hb1 t) (mb2 t) (hb2 t) (mb3 t) (hb3 t) accM (Memref.isWhole_whole _) ((hkFirst t).mpr h0) (fun h => h1 ((hkLast t).mp h)) (mblk V c 0 t) (mblk V c 1 t) (mblk V c 2 t)) := by
  obtain ⟨n, hn⟩ := t
  cases n with
  | zero => exact rfl
  | succ n => exact (dif_pos h0).trans ((dif_neg h1).trans rfl)

theorem accAt_mid (c : Dev nD) (t : Fin cfg1.N) (h0 : ¬t.val % 4 = 0) (h1 : ¬t.val % 4 = 3) :
    accAt V c t.val t.isLt = (outMid c (grid1.coords t) (mb0 t) (hb0 t) (mb1 t) (hb1 t) (mb2 t) (hb2 t) (mb3 t) (hb3 t) accM (Memref.isWhole_whole _) (fun h => h0 ((hkFirst t).mp h)) (fun h => h1 ((hkLast t).mp h)) (mblk V c 0 t) (mblk V c 1 t) (mblk V c 2 t) (accAt V c (t.val - 1) (Nat.lt_of_le_of_lt (Nat.sub_le _ _) t.isLt)).2,
      accMid c (grid1.coords t) (mb0 t) (hb0 t) (mb1 t) (hb1 t) (mb2 t) (hb2 t) (mb3 t) (hb3 t) accM (Memref.isWhole_whole _) (fun h => h0 ((hkFirst t).mp h)) (fun h => h1 ((hkLast t).mp h)) (mblk V c 0 t) (mblk V c 1 t) (mblk V c 2 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg1.N) (h0 : ¬t.val % 4 = 0) (h1 : t.val % 4 = 3) :
    accAt V c t.val t.isLt = (outLast c (grid1.coords t) (mb0 t) (hb0 t) (mb1 t) (hb1 t) (mb2 t) (hb2 t) (mb3 t) (hb3 t) accM (Memref.isWhole_whole _) (fun h => h0 ((hkFirst t).mp h)) ((hkLast t).mpr h1) (mblk V c 0 t) (mblk V c 1 t) (mblk V c 2 t) (accAt V c (t.val - 1) (Nat.lt_of_le_of_lt (Nat.sub_le _ _) t.isLt)).2,
      accLast c (grid1.coords t) (mb0 t) (hb0 t) (mb1 t) (hb1 t) (mb2 t) (hb2 t) (mb3 t) (hb3 t) accM (Memref.isWhole_whole _) (fun h => h0 ((hkFirst t).mp h)) ((hkLast t).mpr h1) (mblk V c 0 t) (mblk V c 1 t) (mblk V c 2 t) (accAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant and the proof data -/

/-- Before position `n`: at the first point the class's invariant (the accumulator at anything), afterwards the
    accumulator at what the point before left. -/
def PhiS (c : Dev nD) : (n : ℕ) → n ≤ cfg1.N → sProp 𝕄
  | 0, _ => Pipeline.ΦA spec1 c
  | n + 1, hn => PhiAcc c (owns (c : Thread nD τ) accM fullShare ((accAt V c n hn).2))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiAcc c (owns (c : Thread nD τ) accM fullShare ((accAt V c n hn).2)) := rfl
theorem PhiS_pos (c : Dev nD) (n : ℕ) (h : n ≤ cfg1.N) (hz : n ≠ 0) :
    PhiS V c n h = PhiAcc c (owns (c : Thread nD τ) accM fullShare ((accAt V c (n - 1) (by omega)).2)) := by
  cases n with
  | zero => exact absurd rfl hz
  | succ n => rfl

/-- The proof data of the region: the arrays as found; after the body each input's buffer at its block and the output's at
    `accAt`'s first component; the invariant `PhiS`; nothing owed. -/
def mdat (c : Dev nD) : Dat τ (Elt F) Unit ℕ (UR sig nD τ) ℕ cfg1 c where
  A w := V c (Pipeline.arrRef spec1 w)
  after w t := match w with
    | ⟨0, _⟩ => mblk V c 0 t
    | ⟨1, _⟩ => mblk V c 1 t
    | ⟨2, _⟩ => mblk V c 2 t
    | ⟨3, _⟩ => (accAt V c t.val t.isLt).1
  Φ t := PhiS V c t.val (Nat.le_of_lt_succ t.isLt)
  q _ := fullShare
  owed _ := 0

theorem mA_eq (c : Dev nD) (w : Fin cfg1.W) : (mdat V c).A w = V c (Pipeline.arrRef spec1 w) := by
  dsimp only [mdat]
theorem PhiS_castSucc (c : Dev nD) (t : Fin cfg1.N) :
    (mdat V c).Φ t.castSucc = PhiS V c t.val (Nat.le_of_lt t.isLt) := by
  dsimp only [mdat]; simp only [Fin.coe_castSucc]
theorem mafter_0 (c : Dev nD) (t : Fin cfg1.N) : (mdat V c).after 0 t = mblk V c 0 t := by dsimp only [mdat]
theorem mafter_1 (c : Dev nD) (t : Fin cfg1.N) : (mdat V c).after 1 t = mblk V c 1 t := by dsimp only [mdat]
theorem mafter_2 (c : Dev nD) (t : Fin cfg1.N) : (mdat V c).after 2 t = mblk V c 2 t := by dsimp only [mdat]
theorem mafter_3 (c : Dev nD) (t : Fin cfg1.N) : (mdat V c).after 3 t = (accAt V c t.val t.isLt).1 := by dsimp only [mdat]
theorem mbefore_0 (c : Dev nD) (t : Fin cfg1.N) (d) : (mdat V c).before 0 t d = mblk V c 0 t :=
  mbefore0_of V (mdat V c) (mA_eq V c 0) (mafter_0 V c) t d
theorem mbefore_1 (c : Dev nD) (t : Fin cfg1.N) (d) : (mdat V c).before 1 t d = mblk V c 1 t :=
  mbefore1_of V (mdat V c) (mA_eq V c 1) (mafter_1 V c) t d
theorem mbefore_2 (c : Dev nD) (t : Fin cfg1.N) (d) : (mdat V c).before 2 t d = mblk V c 2 t :=
  mbefore2_of V (mdat V c) (mA_eq V c 2) (mafter_2 V c) t d

/-! ## The body obligation -/

def mbodyPre (c : Dev nD) (t : Fin cfg1.N) : sProp 𝕄 :=
  iprop((mdat V c).Φ t.castSucc ∗ (mdat V c).owesAt () t.castSucc
    ∗ (∃ d, owns (c : Thread nD τ) (mb0 t) fullShare ((mdat V c).before 0 t d))
    ∗ (∃ d, owns (c : Thread nD τ) (mb1 t) fullShare ((mdat V c).before 1 t d))
    ∗ (∃ d, owns (c : Thread nD τ) (mb2 t) fullShare ((mdat V c).before 2 t d))
    ∗ (∃ d, owns (c : Thread nD τ) (mb3 t) fullShare ((mdat V c).before 3 t d)))

def mbodyPost (c : Dev nD) (t : Fin cfg1.N) : sProp 𝕄 :=
  iprop((mdat V c).Φ t.succ ∗ (mdat V c).owesAt () t.succ
    ∗ (mdat V c).leavesExact 0 t
    ∗ (mdat V c).leavesExact 1 t
    ∗ (mdat V c).leavesExact 2 t
    ∗ (mdat V c).leavesExact 3 t)

theorem leaves_in (c : Dev nD) (t : Fin cfg1.N) :
    (mdat V c).leavesExact 0 t = owns (c : Thread nD τ) (mb0 t) fullShare (mblk V c 0 t)
    ∧ (mdat V c).leavesExact 1 t = owns (c : Thread nD τ) (mb1 t) fullShare (mblk V c 1 t)
    ∧ (mdat V c).leavesExact 2 t = owns (c : Thread nD τ) (mb2 t) fullShare (mblk V c 2 t) := by
  refine ⟨?_, ?_, ?_⟩
  · unfold Dat.leavesExact; rw [live_0 t, mafter_0]
  · unfold Dat.leavesExact; rw [live_1 t, mafter_1]
  · unfold Dat.leavesExact; rw [live_2 t, mafter_2]

set_option maxHeartbeats 4800000 in
/-- The body at any point, by cases on the K block: the inputs' buffers hold their blocks; the invariant hands over the
    accumulator at what the point before left (at anything when the K block is 0) and takes it back at this point's contents. -/
theorem msound_body (c : Dev nD) (t : Fin cfg1.N) :
    mbodyPre V c t ⊢ wp frame (wpE (defs₀ (F := F)) Variants.none c none) Set.univ (bodyAt1 t) (fun _ => mbodyPost V c t) := by
  unfold mbodyPre mbodyPost bodyAt1
  simp only [mbefore_0, mbefore_1, mbefore_2]
  rw [show (mdat V c).owesAt () t.succ = (mdat V c).owesAt () t.castSucc from rfl]
  rw [show (mdat V c).Φ t.succ = PhiS V c (t.val + 1) t.isLt from rfl, PhiS_succ]
  rw [(leaves_in V c t).1, (leaves_in V c t).2.1, (leaves_in V c t).2.2]
  have hN : t.val < 128 := lt_of_lt_of_eq t.isLt (show cfg1.N = 128 from N_1)
  by_cases h0 : t.val % 4 = 0
  · have h1 : ¬t.val % 4 = 3 := by omega
    rw [Dat.leavesExact_idle (mdat V c) 3 t (idle_3 t (fun h => h1 ((hkLast t).mp h))) (noFlush_3 t (fun h => h1 ((hkLast t).mp h)))]
    rw [accAt_first V c t h0 h1]
    unfold accFirst; (try dsimp only)
    have hpre : (mdat V c).Φ t.castSucc ⊢ PhiAcc c (iprop(∃ d, owns (c : Thread nD τ) accM fullShare d)) := by
      rw [PhiS_castSucc V c t]
      by_cases hz : t.val = 0
      · rw [PhiS_zero V c _ _ hz, PhiA_eq]
      · rw [PhiS_pos V c _ _ hz]
        unfold PhiAcc
        iintro ⟨⟨HA, HB, HC, HD, HS⟩, Hg⟩
        isplitr [Hg]
        · isplitl [HA]; · iexact HA
          isplitl [HB]; · iexact HB
          isplitl [HC]; · iexact HC
          isplitl [HD]; · iexact HD
          iexists _; iexact HS
        iexact Hg
    iintro ⟨HΦ, Ho, ⟨%d0, H0⟩, ⟨%d1, H1⟩, ⟨%d2, H2⟩, ⟨%d3, H3⟩⟩
    ihave HΦ := hpre $$ HΦ
    ihave HΦ := (PhiAcc_swap c _ (owns (c : Thread nD τ) accM fullShare (accV.read (Elt F) (accV.writes (Elt F) accV.junk (runFirst c (grid1.coords t) (mb0 t) (hb0 t) (mb1 t) (hb1 t) (mb2 t) (hb2 t) (mb3 t) (hb3 t) accM (Memref.isWhole_whole _) ((hkFirst t).mpr h0) (fun h => h1 ((hkLast t).mp h)) (mblk V c 0 t) (mblk V c 1 t) (mblk V c 2 t)).2.1)))) $$ HΦ
    icases HΦ with ⟨HS, Hback⟩
    iapply ((runFirst c (grid1.coords t) (mb0 t) (hb0 t) (mb1 t) (hb1 t) (mb2 t) (hb2 t) (mb3 t) (hb3 t) accM (Memref.isWhole_whole _) ((hkFirst t).mpr h0) (fun h => h1 ((hkLast t).mp h)) (mblk V c 0 t) (mblk V c 1 t) (mblk V c 2 t)).2.2 _ Set.univ _)
    isplitl [H0]; · iexact H0
    isplitl [H1]; · iexact H1
    isplitl [H2]; · iexact H2
    isplitl [H3]; · iexact H3
    isplitl [HS]; · iexact HS
    iintro ⟨H0, H1, H2, H3, ⟨%es, HS⟩⟩
    isplitl [HS Hback]
    · iapply Hback
      unfold owns; iexists _; isplitr
      swap; · iexact HS
      ipureintro; exact View.read_writes_of_cover _ _ _ _ _ (accFirst_cover c _ _ _ _ _ _ _ _ _ _ _ _ _ _ _ _)
    isplitl [Ho]; · iexact Ho
    isplitl [H0]; · iexact H0
    isplitl [H1]; · iexact H1
    isplitl [H2]; · iexact H2
    iexists _; iexact H3
  · have hz : t.val ≠ 0 := fun e => h0 (by rw [e])
    by_cases h1 : t.val % 4 = 3
    · rw [show (mdat V c).leavesExact 3 t = owns (c : Thread nD τ) (mb3 t) fullShare ((mdat V c).after 3 t) from by
        unfold Dat.leavesExact; rw [live_3 t ((hkLast t).mpr h1)], mafter_3]
      rw [accAt_last V c t h0 h1]
      unfold outLast accLast; (try dsimp only)
      rw [PhiS_castSucc V c t, PhiS_pos V c _ _ hz]
      iintro ⟨HΦ, Ho, ⟨%d0, H0⟩, ⟨%d1, H1⟩, ⟨%d2, H2⟩, ⟨%d3, H3⟩⟩
      ihave HΦ := (PhiAcc_swap c _ (owns (c : Thread nD τ) accM fullShare (accV.read (Elt F) (accV.writes (Elt F) accV.junk (runLast c (grid1.coords t) (mb0 t) (hb0 t) (mb1 t) (hb1 t) (mb2 t) (hb2 t) (mb3 t) (hb3 t) accM (Memref.isWhole_whole _) (fun h => h0 ((hkFirst t).mp h)) ((hkLast t).mpr h1) (mblk V c 0 t) (mblk V c 1 t) (mblk V c 2 t) (accAt V c (t.val - 1) (Nat.lt_of_le_of_lt (Nat.sub_le _ _) t.isLt)).2).2.1)))) $$ HΦ
      icases HΦ with ⟨HS, Hback⟩
      iapply ((runLast c (grid1.coords t) (mb0 t) (hb0 t) (mb1 t) (hb1 t) (mb2 t) (hb2 t) (mb3 t) (hb3 t) accM (Memref.isWhole_whole _) (fun h => h0 ((hkFirst t).mp h)) ((hkLast t).mpr h1) (mblk V c 0 t) (mblk V c 1 t) (mblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hback]
      · iapply Hback
        unfold owns; iexists _; isplitr
        swap; · iexact HS
        ipureintro; exact View.read_writes_of_cover _ _ _ _ _ (accLast_cover c _ _ _ _ _ _ _ _ _ _ _ _ _ _ _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (outLast_cover c _ _ _ _ _ _ _ _ _ _ _ _ _ _ _ _ _)
    · rw [Dat.leavesExact_idle (mdat V c) 3 t (idle_3 t (fun h => h1 ((hkLast t).mp h))) (noFlush_3 t (fun h => h1 ((hkLast t).mp h)))]
      rw [accAt_mid V c t h0 h1]
      unfold accMid; (try dsimp only)
      rw [PhiS_castSucc V c t, PhiS_pos V c _ _ hz]
      iintro ⟨HΦ, Ho, ⟨%d0, H0⟩, ⟨%d1, H1⟩, ⟨%d2, H2⟩, ⟨%d3, H3⟩⟩
      ihave HΦ := (PhiAcc_swap c _ (owns (c : Thread nD τ) accM fullShare (accV.read (Elt F) (accV.writes (Elt F) accV.junk (runMid c (grid1.coords t) (mb0 t) (hb0 t) (mb1 t) (hb1 t) (mb2 t) (hb2 t) (mb3 t) (hb3 t) accM (Memref.isWhole_whole _) (fun h => h0 ((hkFirst t).mp h)) (fun h => h1 ((hkLast t).mp h)) (mblk V c 0 t) (mblk V c 1 t) (mblk V c 2 t) (accAt V c (t.val - 1) (Nat.lt_of_le_of_lt (Nat.sub_le _ _) t.isLt)).2).2.1)))) $$ HΦ
      icases HΦ with ⟨HS, Hback⟩
      iapply ((runMid c (grid1.coords t) (mb0 t) (hb0 t) (mb1 t) (hb1 t) (mb2 t) (hb2 t) (mb3 t) (hb3 t) accM (Memref.isWhole_whole _) (fun h => h0 ((hkFirst t).mp h)) (fun h => h1 ((hkLast t).mp h)) (mblk V c 0 t) (mblk V c 1 t) (mblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [HS Hback]
      · iapply Hback
        unfold owns; iexists _; isplitr
        swap; · iexact HS
        ipureintro; exact View.read_writes_of_cover _ _ _ _ _ (accMid_cover c _ _ _ _ _ _ _ _ _ _ _ _ _ _ _ _ _)
      isplitl [Ho]; · iexact Ho
      isplitl [H0]; · iexact H0
      isplitl [H1]; · iexact H1
      isplitl [H2]; · iexact H2
      iexists _; iexact H3

/-- The body obligation of the region, at every point. -/
theorem mbody_obligation (c : Dev nD) : BodyObligation (mdat (F := F) V c) (defs₀ (F := F)) Variants.none () Set.univ := fun t => by
  rw [bigSep_W1, bigSep_W1]
  exact msound_body V c t

/-- What the launch hands the region is the invariant before the first point, -/
theorem m_in (c : Dev nD) : Pipeline.ΦA spec1 c ⊢ (mdat V c).Φ 0 := by
  rw [show (mdat V c).Φ 0 = PhiS V c 0 (Nat.zero_le _) from rfl, PhiS_zero V c 0 _ rfl]
  try exact Idealize.SL.BI.Entails.refl _

/-- and after the last point the invariant gives it back, the accumulator's contents forgotten. -/
theorem m_out (c : Dev nD) : (mdat V c).Φ (Fin.last cfg1.N) ⊢ Pipeline.ΦA spec1 c := by
  have ht : (Fin.last cfg1.N).val ≠ 0 := by rw [Fin.val_last]; have : cfg1.N = 128 := N_1; omega
  rw [show (mdat V c).Φ (Fin.last cfg1.N) = PhiS V c (Fin.last cfg1.N).val (Nat.le_of_lt_succ (Fin.last cfg1.N).isLt) from rfl,
    PhiS_pos V c _ _ ht, PhiA_eq]
  unfold PhiAcc
  iintro ⟨⟨HA, HB, HC, HD, HS⟩, Hg⟩
  isplitr [Hg]
  · isplitl [HA]; · iexact HA
    isplitl [HB]; · iexact HB
    isplitl [HC]; · iexact HC
    isplitl [HD]; · iexact HD
    iexists _; iexact HS
  iexact Hg

end

end Cert.KernelIdeal.Run

end
-- ==== Proof.Run.lean ====
/-
  The whole program as its three items in order — the quantiser region, the one host operation (the bias reshaped to a row),
  the matrix-product region — at any float instance. The unscoped buffers' contents are followed from the launch memory
  through the items: a region changes its windows' arrays to what its write-backs leave and nothing else, a host operation
  writes its own result. Each region is entered from "every unscoped buffer at the boundary's contents, the generator register at
  some state, nothing owed" and left at the same with the next contents. The run ends with every unscoped buffer at the last
  boundary's contents: the arguments as launched (the frame), and the result array at what the second region's write-backs
  leave.
-/
import proofs.«181300_j51196010168686_1_alg».proof.Proof.QuantRegion
import proofs.«181300_j51196010168686_1_alg».proof.Proof.MatmulRegion

-- membership in a rectangle with axes of several thousand entries recurses once per coordinate
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the quantiser region: its arrays at what the pipeline leaves, every other buffer as entered. -/
def W1 (c : Dev nD) : Valuation τ sig (Elt F) :=
  Pipeline.withArrays spec0 c (W0 m ρ c) fun w => (qdat (V0 m ρ) c).arrAt w cfg0.N
theorem W1_arr (c : Dev nD) (w : Fin cfg0.W) :
    W1 m ρ c (Proc.devRef .tc (Pipeline.arrRef spec0 w)) = (qdat (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (qdat (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operation. -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the matrix-product region. -/
def W3 (c : Dev nD) : Valuation τ sig (Elt F) :=
  Pipeline.withArrays spec1 c (W2 m ρ c) fun w => (mdat (V2 m ρ) c).arrAt w cfg1.N
theorem W3_arr (c : Dev nD) (w : Fin cfg1.W) :
    W3 m ρ c (Proc.devRef .tc (Pipeline.arrRef spec1 w)) = (mdat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (mdat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The host operation writes only its own result. -/
theorem W2_of_ne (c : Dev nD) (b : Ref sig .tc) (hb : b ≠ main_v1) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The arguments end as launched -/

theorem W3_main_arg0 (c : Dev nD) : W3 m ρ c (Proc.devRef .tc main_arg0) = m ((c : Thread nD τ).loc main_arg0) :=
  calc W3 m ρ c (Proc.devRef .tc main_arg0)
    _ = (mdat (V2 m ρ) c).arrAt 0 cfg1.N := W3_arr m ρ c 0
    _ = W2 m ρ c (Proc.devRef .tc main_arg0) := ((mdat (V2 m ρ) c).arrAt_in 0 rfl _).trans (mA_eq (V2 m ρ) c 0)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = (qdat (V0 m ρ) c).arrAt 0 cfg0.N := W1_arr m ρ c 0
    _ = W0 m ρ c (Proc.devRef .tc main_arg1) := ((qdat (V0 m ρ) c).arrAt_in 0 rfl _).trans (qA_eq (V0 m ρ) c 0)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

/-- The result array ends at what the second region's write-backs leave. -/
theorem W3_main_v2 (c : Dev nD) : W3 m ρ c (Proc.devRef .tc main_v2) = (mdat (V2 m ρ) c).arrAt 3 cfg1.N := W3_arr m ρ c 3

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => qdat (V0 m ρ) c
  | ⟨1, _⟩ => fun c => mdat (V2 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W3 m ρ c) ∗ ∃ r, prngReg c r)

/-! ## The regions as segments -/

set_option backward.isDefEq.respectTransparency.types false in
/-- The quantiser region: entered from every unscoped buffer at the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (qbody_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: entered from every unscoped buffer at `W2`, left at `W3`. The invariant before the first
    point is the class's, and after the last point gives it back with the accumulator's contents forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (mbody_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    have hback : (mdat (V2 m ρ) c).Φ (Fin.last cfg1.N) ⊢ (iprop(Pipeline.scopedRest spec1 c ∗ ∃ r, prngReg c r) : sProp 𝕄) := by
      have h := m_out (V2 m ρ) c
      unfold Pipeline.ΦA at h
      exact h
    rw [Pipeline.ownSems0_none, show (pdats m ρ 1 c).Φ (Fin.last _) = (mdat (V2 m ρ) c).Φ (Fin.last cfg1.N) from rfl]
    refine hback.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its segments, and the run -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting, and
    the final memory holds every unscoped buffer at the last boundary's contents `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The run with the result named: the result array at what the second region's write-backs leave, the arguments as launched. -/
theorem run_result : θ_run defs (onTc (τ := τ) (main (F := F))) ⟨m, fun _ => 0, ρ⟩ (fun r => ∀ c : Dev nD,
      r.2.mem ((c.tc : Thread nD τ).loc main_v2) = (mdat (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v2 (by decide))).trans (W3_main_v2 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Run

end
-- ==== Proof.QuantSpec.lean ====
/-
  The group-wise quantisation of one row of a weight matrix, as a function on the extended reals.

  A row has 4096 entries, taken in 512 groups of 8 consecutive entries: member s of group g is entry
  8 g + s. A group's scale is the largest magnitude among its members divided by seven, but never
  below a small positive floor. An entry is divided by its group's scale, rounded to the nearest
  integer (ties to even), clipped to [-7, 7], and multiplied by the scale again.

  The float constants are kept as the words the two programs print: 0xFF800000 is -infinity (where
  the maximum starts), 0x40E00000 is 7, 0xC0E00000 is -7 and 0x322BCC77 is the floor of the scale.
-/
import Idealize.ShloMosaic.PureOps.Ideal.Laws
import Idealize.ShloMosaic.Lib.ValueIdx

noncomputable section

namespace Cert.QuantSpec

open Idealize.ShloMosaic

/-- Member `s` of group `g` of a row: entry `8 g + s`. -/
def member (g : Fin 512) (s : Fin 8) : Fin 4096 := ⟨8 * g.val + s.val, by omega⟩

theorem member_val (g : Fin 512) (s : Fin 8) : (member g s).val = 8 * g.val + s.val := rfl

/-- The group an entry belongs to. -/
def groupOf (i : Fin 4096) : Fin 512 := ⟨i.val / 8, by omega⟩

/-- An entry's place inside its group. -/
def placeOf (i : Fin 4096) : Fin 8 := ⟨i.val % 8, by omega⟩

theorem groupOf_val (i : Fin 4096) : (groupOf i).val = i.val / 8 := rfl
theorem placeOf_val (i : Fin 4096) : (placeOf i).val = i.val % 8 := rfl

/-- An entry is the member, at its place, of its group. -/
theorem member_groupOf_placeOf (i : Fin 4096) : member (groupOf i) (placeOf i) = i :=
  Fin.ext (by rw [member_val, groupOf_val, placeOf_val]; omega)

/-- The largest magnitude in group `g` of the row `r`: the maximum, starting from -infinity, of
    `|r (8 g + s)|` over the eight members `s` (a magnitude is `max x (-x)`). -/
def groupMax (r : Fin 4096 → EReal) (g : Fin 512) : EReal :=
  (Finset.univ : Finset (Fin 8)).fold max (Ideal.ofBits .f32 0xFF800000#32)
    (fun s => max (r (member g s)) (-(r (member g s))))

/-- The scale of group `g`: its largest magnitude over seven, or the floor if that is larger. -/
def scale (r : Fin 4096 → EReal) (g : Fin 512) : EReal :=
  max (Ideal.div (groupMax r g) (Ideal.ofBits .f32 0x40E00000#32)) (Ideal.ofBits .f32 0x322BCC77#32)

/-- Member `s` of group `g` quantised and scaled back: `clip (roundeven (x / scale)) * scale`. -/
def deq (r : Fin 4096 → EReal) (g : Fin 512) (s : Fin 8) : EReal :=
  min (Ideal.ofBits .f32 0x40E00000#32)
      (max (Ideal.ofBits .f32 0xC0E00000#32)
        (Ideal.liftRound Ideal.roundHalfEven (Ideal.div (r (member g s)) (scale r g))))
    * scale r g

end Cert.QuantSpec

end
-- ==== Proof.QuantRef.lean ====
/-
  The reference's dequantised and transposed weight, read at an index, is the row quantisation of
  QuantSpec: entry (i, o) of the result is entry i of row o of the weight, quantised in its group.

  The reference reshapes the weight [4096, 4096] to [4096, 512, 8] (row o, group g, member s is entry
  (o, 8 g + s)), takes magnitudes, reduces with a maximum over the members from -infinity, divides by
  seven and floors the scale, divides, rounds, clips, multiplies back, reshapes to [4096, 4096] and
  transposes. Each stage is read at an index by the lemma the imported Read module states for it; the
  one reduction is read as a fold over the eight members of the group.
-/
import proofs.«181300_j51196010168686_1_alg».proof.Proof.Gen.ReferenceIdeal.Read
import proofs.«181300_j51196010168686_1_alg».proof.Proof.QuantSpec

noncomputable section

namespace Cert.QuantRef

open Cert.ReferenceIdeal Cert.ReferenceIdeal.Gen Cert.ReferenceIdeal.Read Idealize.ShloMosaic Idealize.ShloMosaic.ValueIdx Cert.QuantSpec

/-- Row `o` of a weight matrix. -/
def row (w : (⟨S4096x4096, .f32⟩ : BufTy).Contents (Elt Ideal)) (o : Fin 4096) : Fin 4096 → EReal :=
  fun k => w (ix2 o k)

/-- The reshaped weight at (o, g, s) is the weight at (o, 8 g + s). -/
theorem v0_at (w : (⟨S4096x4096, .f32⟩ : BufTy).Contents (Elt Ideal)) (o : Fin 4096) (g : Fin 512) (s : Fin 8) :
    val_main_v0 (F := Ideal) w (ix3 o g s) = row w o (member g s) := by
  rw [val_main_v0_apply]
  have ho := o.isLt; have hg := g.isLt; have hs := s.isLt
  exact congrArg w (funext fun a => match a with
    | ⟨0, _⟩ => Fin.ext (by show ((o.val * 512 + g.val) * 8 + s.val) / 4096 = o.val; omega)
    | ⟨1, _⟩ => Fin.ext (by show ((o.val * 512 + g.val) * 8 + s.val) % 4096 = 8 * g.val + s.val; omega))

/-- The index (o, g) of the reduced array with member `k` put back on the reduced axis is (o, g, k). -/
theorem lift_ix3 (h : S4096x512x8.Reduces [2] S4096x512) (o : Fin 4096) (g : Fin 512) (k : Fin (S4096x512x8.size 2)) :
    h.lift (ix2 o g) k = ix3 o g (⟨k.val, k.isLt⟩ : Fin 8) := by
  funext c; apply Fin.ext
  fin_cases c <;> rfl

/-- A reduce with a maximum over the last axis of a [4096, 512, 8] array, from -infinity, read at (o, g):
    the maximum over the eight members of the group. -/
theorem hostReduce_groupMax (y : FVec Ideal S4096x512x8 .f32) (h' : S4096x512x8.ReducesTo [2] S4096x512)
    (hu : 0 < S_.numel) (o : Fin 4096) (g : Fin 512) :
    Host.reduce FloatOps.maximumf y (constant (F := Ideal) S_ .f32 0xFF800000#32) h' hu (ix2 o g)
      = (Finset.univ : Finset (Fin 8)).fold max (Ideal.ofBits .f32 0xFF800000#32) (fun s => y (ix3 o g s)) := by
  have h : S4096x512x8.Reduces [2] S4096x512 := by decide
  rw [Host.reduce_eq_fold_single FloatOps.maximumf y _ h' h hu]
  have hf : (y ∘ h.lift (ix2 o g)) = fun k : Fin 8 => y (ix3 o g k) := funext fun k => congrArg y (lift_ix3 h o g k)
  exact congrArg (fun f => Finset.fold max (Ideal.ofBits .f32 0xFF800000#32) f (Finset.univ : Finset (Fin 8))) hf

/-- The reduced array at (o, g) is the largest magnitude of group `g` of row `o`. -/
theorem v2_at (w : (⟨S4096x4096, .f32⟩ : BufTy).Contents (Elt Ideal)) (o : Fin 4096) (g : Fin 512) :
    val_main_v2 (F := Ideal) w (ix2 o g) = groupMax (row w o) g := by
  unfold val_main_v2 val_main_cst
  refine (hostReduce_groupMax (val_main_v1 (F := Ideal) w) _ _ o g).trans ?_
  unfold groupMax
  refine congrArg (fun f => Finset.fold max (Ideal.ofBits .f32 0xFF800000#32) f (Finset.univ : Finset (Fin 8))) (funext fun s => ?_)
  rw [val_main_v1_apply, v0_at]; rfl

/-- The floored scale at (o, g, 0) is the scale of group `g` of row `o`. -/
theorem v7_at (w : (⟨S4096x4096, .f32⟩ : BufTy).Contents (Elt Ideal)) (o : Fin 4096) (g : Fin 512) :
    val_main_v7 (F := Ideal) w (ix3 o g (0 : Fin 1)) = scale (row w o) g := by
  have e : idx_main_v3 (ix3 o g (0 : Fin 1)) = ix2 o g := funext fun a => match a with
    | ⟨0, _⟩ => rfl
    | ⟨1, _⟩ => rfl
  rw [val_main_v7_apply, val_main_v5_apply, val_main_v3_apply, val_main_v4_apply, val_main_v6_apply,
    val_main_cst_0_apply, val_main_cst_1_apply, e, v2_at]
  rfl

/-- The product stage at (o, g, s) is member `s` of group `g` of row `o`, quantised and scaled back. -/
theorem v13_at (w : (⟨S4096x4096, .f32⟩ : BufTy).Contents (Elt Ideal)) (o : Fin 4096) (g : Fin 512) (s : Fin 8) :
    val_main_v13 (F := Ideal) w (ix3 o g s) = deq (row w o) g s := by
  have e8 : idx_main_v8 (ix3 o g s) = ix3 o g (0 : Fin 1) := funext fun a => match a with
    | ⟨0, _⟩ => rfl
    | ⟨1, _⟩ => rfl
    | ⟨2, _⟩ => rfl
  have e12 : idx_main_v12 (ix3 o g s) = ix3 o g (0 : Fin 1) := funext fun a => match a with
    | ⟨0, _⟩ => rfl
    | ⟨1, _⟩ => rfl
    | ⟨2, _⟩ => rfl
  rw [val_main_v13_apply, val_main_v11_apply, val_main_v12_apply, val_main_call1_v4_apply, val_main_call1_v3_apply,
    val_main_cst_3_apply, val_main_call1_v2_apply, val_main_call1_v1_apply, val_main_call1_v0_apply, val_main_cst_2_apply,
    val_main_v10_apply, val_main_v9_apply, val_main_v8_apply, e8, e12, v7_at, v0_at]
  rfl

/-- The reference's dequantised, transposed weight at (i, o): entry `i` of row `o`, quantised in its group. -/
theorem v15_at (w : (⟨S4096x4096, .f32⟩ : BufTy).Contents (Elt Ideal)) (i : Fin 4096) (o : Fin 4096) :
    val_main_v15 (F := Ideal) w (ix2 i o) = deq (row w o) (groupOf i) (placeOf i) := by
  have ho := o.isLt; have hi := i.isLt
  have e : idx_main_v14 (idx_main_v15 (ix2 i o)) = ix3 o (groupOf i) (placeOf i) := funext fun a => match a with
    | ⟨0, _⟩ => Fin.ext (by show (o.val * 4096 + i.val) / 4096 = o.val; omega)
    | ⟨1, _⟩ => Fin.ext (by show (o.val * 4096 + i.val) / 8 % 512 = i.val / 8; omega)
    | ⟨2, _⟩ => Fin.ext (by show (o.val * 4096 + i.val) % 8 = i.val % 8; omega)
  rw [val_main_v15_apply, val_main_v14_apply, e, v13_at]

end Cert.QuantRef

end
-- ==== Proof.QuantKernel.lean ====
/-
  The quantising kernel's stored block, read at an index, is the row quantisation of QuantSpec.

  The kernel loads a block of 256 rows of the weight, [256, 4096], transposes it to [4096, 256], and
  regroups the 4096 entries of each row as [512, 8, 256]: at (g, s, a) stands entry 8 g + s of row a of
  the block. It takes magnitudes, reduces them with a maximum over the eight members of a group from
  -infinity, divides by seven, floors the scale, spreads it back over the members, divides, rounds,
  clips, multiplies back and regroups to [4096, 256]. The change of format to bf16 at the end is the
  identity on the extended reals. So entry (i, a) of what is stored is entry i of row a of the block,
  quantised in its group.
-/
import proofs.«181300_j51196010168686_1_alg».proof.Proof.Gen.KernelIdeal.Skeleton
import proofs.«181300_j51196010168686_1_alg».proof.Proof.QuantSpec
import Idealize.ShloMosaic.Lib.Pipeline.Value
import Idealize.ShloMosaic.Lib.ValueIdx
import Idealize.ShloMosaic.PureOps.Ideal.Laws

noncomputable section

namespace Cert.QuantKernel

open Cert.KernelIdeal Cert.KernelIdeal.Gen Idealize.ShloMosaic Idealize.ShloMosaic.ValueIdx Cert.QuantSpec

/-- The transposed block regrouped to [512, 8, 256], at (g, s, a): entry `8 g + s` of row `a` of the block. -/
theorem grouped_at {α : Type} (v0 : S256x4096.Idx → α) (h1 : S256x4096.Transposes [1, 0] S4096x256)
    (h2 : S4096x256.ShapeCasts S512x8x256) (g : Fin 512) (s : Fin 8) (a : Fin 256) :
    shapeCast S512x8x256 (transpose S4096x256 [1, 0] v0 h1) h2 (ix3 g s a) = v0 (ix2 a (member g s)) := by
  have hg := g.isLt; have hs := s.isLt; have ha := a.isLt
  refine (shapeCast_apply _ h2 (ix3 g s a) (ix2 (member g s) a) ?_).trans ?_
  · rw [Shape.rowMajor_val_two, Shape.rowMajor_val_three]
    show (8 * g.val + s.val) * 256 + a.val = (g.val * 8 + s.val) * 256 + a.val
    omega
  · exact transpose_apply [1, 0] v0 h1 (ix2 (member g s) a) (ix2 a (member g s)) (fun b => match b with
      | ⟨0, _⟩ => rfl
      | ⟨1, _⟩ => rfl)

/-- The index (g, a) of the reduced vector with member `k` put back on the reduced axis is (g, k, a). -/
theorem lift_ix3 (h : S512x8x256.Reduces [1] S512x256) (g : Fin 512) (a : Fin 256) (k : Fin (S512x8x256.size 1)) :
    h.lift (ix2 g a) k = ix3 g (⟨k.val, k.isLt⟩ : Fin 8) a := by
  funext c; apply Fin.ext
  fin_cases c <;> rfl

/-- A maximum reduction over the middle axis of a [512, 8, 256] vector, from -infinity, read at (g, a):
    the maximum over the eight members of group `g` in column `a`. -/
theorem multiReduction_groupMax (x : FVec Ideal S512x8x256 .f32) (h : S512x8x256.Reduces [1] S512x256)
    (hφ : FKind.Formats .f32) (hacc : (0xFF800000#32 : BitVec 32) = 0xFF800000#32)
    (g : Fin 512) (a : Fin 256) :
    multiReduction .maximumf [1] S512x256 x 0xFF800000#32 h hφ hacc (ix2 g a)
      = (Finset.univ : Finset (Fin 8)).fold max (Ideal.ofBits .f32 0xFF800000#32) (fun s => x (ix3 g s a)) := by
  rw [Ideal.multiReduction_maximumf_single x _ h hφ hacc (ix2 g a)]
  have hf : (x ∘ h.lift (ix2 g a)) = fun k : Fin 8 => x (ix3 g k a) := funext fun k => congrArg x (lift_ix3 h g a k)
  exact congrArg (fun f => Finset.fold max (Ideal.ofBits .f32 0xFF800000#32) f (Finset.univ : Finset (Fin 8))) hf

/-- A [512, 256] vector given a unit middle axis, at (g, 0, a), is the vector at (g, a). -/
theorem keep_at (z : FVec Ideal S512x256 .f32) (h : S512x256.ShapeCasts S512x1x256) (g : Fin 512) (a : Fin 256) :
    shapeCast S512x1x256 z h (ix3 g (0 : Fin 1) a) = z (ix2 g a) :=
  shapeCast_apply z h (ix3 g (0 : Fin 1) a) (ix2 g a) (by
    rw [Shape.rowMajor_val_two, Shape.rowMajor_val_three]
    show g.val * 256 + a.val = (g.val * 1 + 0) * 256 + a.val
    omega)

/-- A [512, 1, 256] vector spread over eight members, at (g, s, a), is the vector at (g, 0, a). -/
theorem spread_at (z : FVec Ideal S512x1x256 .f32) (h : S512x1x256.Broadcasts S512x8x256) (g : Fin 512) (s : Fin 8)
    (a : Fin 256) : broadcastTo S512x8x256 z h (ix3 g s a) = z (ix3 g (0 : Fin 1) a) :=
  broadcastTo_apply z h (ix3 g s a) (ix3 g (0 : Fin 1) a) (fun c => match c with
    | ⟨0, _⟩ => by show g.val = if (512 : Nat) = 1 then 0 else g.val; rw [if_neg (by decide)]
    | ⟨1, _⟩ => by show 0 = if (1 : Nat) = 1 then 0 else s.val; rw [if_pos rfl]
    | ⟨2, _⟩ => by show a.val = if (256 : Nat) = 1 then 0 else a.val; rw [if_neg (by decide)])

/-- A [512, 8, 256] vector regrouped to [4096, 256], at (i, a), is the vector at (group of i, place of i, a). -/
theorem ungroup_at (u : FVec Ideal S512x8x256 .f32) (h : S512x8x256.ShapeCasts S4096x256) (i : Fin 4096) (a : Fin 256) :
    shapeCast S4096x256 u h (ix2 i a) = u (ix3 (groupOf i) (placeOf i) a) :=
  shapeCast_apply u h (ix2 i a) (ix3 (groupOf i) (placeOf i) a) (by
    have hi := i.isLt; have ha := a.isLt
    rw [Shape.rowMajor_val_three, Shape.rowMajor_val_two]
    show (i.val / 8 * 8 + i.val % 8) * 256 + a.val = i.val * 256 + a.val
    omega)

/-- Rounding a vector, at an index: the entry rounded to the nearest integer, ties to even. -/
theorem roundeven_at {s : Shape} (x : FVec Ideal s .f32) (j : s.Idx) :
    roundeven x j = Ideal.liftRound Ideal.roundHalfEven (x j) := rfl

/-- The magnitudes of a vector, at an index: `max x (-x)` of the entry. -/
theorem absf_at {s : Shape} (x : FVec Ideal s .f32) (j : s.Idx) : absf x j = max (x j) (-(x j)) := rfl

/-- The largest magnitude over a group of the regrouped, transposed block, at (g, a): the largest magnitude of
    group `g` of row `a` of the block. -/
theorem groupMax_at (v0 : FVec Ideal S256x4096 .f32) (h1 : S256x4096.Transposes [1, 0] S4096x256)
    (h2 : S4096x256.ShapeCasts S512x8x256) (hr : S512x8x256.Reduces [1] S512x256) (hφ : FKind.Formats .f32)
    (hacc : (0xFF800000#32 : BitVec 32) = 0xFF800000#32) (g : Fin 512) (a : Fin 256) :
    multiReduction .maximumf [1] S512x256 (absf (shapeCast S512x8x256 (transpose S4096x256 [1, 0] v0 h1) h2))
        0xFF800000#32 hr hφ hacc (ix2 g a)
      = groupMax (fun k => v0 (ix2 a k)) g := by
  rw [multiReduction_groupMax]
  unfold groupMax
  refine congrArg (fun f => Finset.fold max (Ideal.ofBits .f32 0xFF800000#32) f (Finset.univ : Finset (Fin 8)))
    (funext fun s => ?_)
  rw [absf_at, grouped_at]

/-- Entry (i, a) of the stored block is entry `i` of row `a` of the loaded block, quantised in its group. -/
theorem pay_at (v0 : Vec Ideal S256x4096 .f32) (i : Fin 4096) (a : Fin 256) :
    k0_pay1 (F := Ideal) v0 (ix2 i a) = deq (fun k => v0 (ix2 a k)) (groupOf i) (placeOf i) := by
  unfold k0_pay1
  dsimp only
  refine (truncf_apply (ψ := .bf16) _ bitsLt_bf16_f32 (ix2 i a)).trans ?_
  refine (ungroup_at _ _ i a).trans ?_
  simp only [mulf_apply, minimumf_apply, maximumf_apply, divf_apply, broadcast_apply, roundeven_at,
    spread_at, keep_at]
  rw [groupMax_at, grouped_at]
  rfl

end Cert.QuantKernel

end
-- ==== Proof.QuantValue.lean ====
/-
  One block of the quantising kernel against the reference.

  The kernel's grid point j loads rows 256 j … 256 j + 255 of the weight and stores their quantisation,
  transposed, as columns 256 j … 256 j + 255 of the dequantised weight. Entry (i, a) of the stored block
  is entry i of row a of the loaded block quantised in its group of eight; entry (i, 256 j + a) of the
  reference's dequantised, transposed weight is entry i of row 256 j + a of the weight quantised in its
  group. Row a of the block is row 256 j + a of the weight, so the two agree.
-/
import proofs.«181300_j51196010168686_1_alg».proof.Proof.Gen.KernelIdeal.Skeleton
import proofs.«181300_j51196010168686_1_alg».proof.Proof.Gen.ReferenceIdeal.Read
import proofs.«181300_j51196010168686_1_alg».proof.Proof.QuantSpec
import proofs.«181300_j51196010168686_1_alg».proof.Proof.QuantRef
import proofs.«181300_j51196010168686_1_alg».proof.Proof.QuantKernel

noncomputable section

namespace Cert.KernelIdeal.QuantValue

open Idealize.ShloMosaic

/-- The stored block of grid point `j`, at (i, a), is the reference's dequantised and transposed weight
    at (i, 256 j + a), whenever the loaded block is rows 256 j … 256 j + 255 of the weight. -/
theorem quant_block_apply (wblk : Vec Ideal Cert.KernelIdeal.S256x4096 .f32)
    (w : (⟨Cert.ReferenceIdeal.S4096x4096, .f32⟩ : BufTy).Contents (Elt Ideal)) (j : Fin 16)
    (hblk : ∀ (a : Fin 256) (i : Fin 4096),
      wblk (ValueIdx.ix2 a i) = w (ValueIdx.ix2 (⟨256 * j.val + a.val, by omega⟩ : Fin 4096) i))
    (i : Fin 4096) (a : Fin 256) :
    Cert.KernelIdeal.Gen.k0_pay1 (F := Ideal) wblk (ValueIdx.ix2 i a)
      = Cert.ReferenceIdeal.Read.val_main_v15 (F := Ideal) w
          (ValueIdx.ix2 i (⟨256 * j.val + a.val, by omega⟩ : Fin 4096)) := by
  rw [Cert.QuantKernel.pay_at, Cert.QuantRef.v15_at]
  exact congrArg (fun r => Cert.QuantSpec.deq r (Cert.QuantSpec.groupOf i) (Cert.QuantSpec.placeOf i))
    (funext fun k => hblk a k)

end Cert.KernelIdeal.QuantValue

end
-- ==== Proof.QuantFinal.lean ====
/-
  What the first kernel region leaves in its output array, over the extended reals: the transposed dequantised weight, the
  same function of the weight matrix as the reference's transposed stage. Point `t` of the region reads rows
  256·t … 256·t + 255 of the weight (all columns) and writes back columns 256·t … 256·t + 255 of the output (all rows), its
  quantise-dequantise payload of that block; the 16 column stripes tile the output, so the array ends at that one function.
-/
import proofs.«181300_j51196010168686_1_alg».proof.Proof.QuantRegion
import proofs.«181300_j51196010168686_1_alg».proof.Proof.QuantValue
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The body's one store covers the output block, so the block ends at the payload of the loaded input block. -/
theorem qout_eq (x0 : Vec Ideal S256x4096 .f32) : qout x0 = k0_pay1 x0 := by
  unfold qout
  rw [View.canon_unit_zero hz2]
  simp only [View.ld_unit_zero (S := S256x4096) hz2]

/-- The index maps over the grid: the weight window walks the row blocks, the output window the column blocks. -/
theorem qidx : ∀ t : Fin cfg0.N, win0_0.index t (0 : Fin 2) = t.val ∧ win0_0.index t (1 : Fin 2) = 0
    ∧ win0_1.index t (0 : Fin 2) = 0 ∧ win0_1.index t (1 : Fin 2) = t.val :=
  (by decide +kernel : ∀ t : Fin grid0.N, _)

/-- The transposed dequantised weight, as the reference's stage computes it from the weight matrix the region finds. -/
abbrev deqT (c : Dev nD) : Buf (Elt Ideal) ((c : Thread nD τ).loc main_v0) :=
  fun i => Cert.ReferenceIdeal.Read.val_main_v15 (F := Ideal) (V c main_arg1) i

/-- The weight window's block at point `t` is rows 256·t … of the weight matrix. -/
theorem qblk_apply (c : Dev nD) (t : Fin cfg0.N) (a : Fin 256) (i : Fin 4096) :
    (qblk V c 0 t : Vec Ideal S256x4096 .f32) (ix2 a i)
      = V c main_arg1 (ix2 (⟨256 * t.val + a.val, by have := t.isLt; have : cfg0.N = 16 := N_0; omega⟩ : Fin 4096) i) := by
  unfold qblk
  rw [View.read_apply]
  show V c main_arg1 _ = V c main_arg1 _
  congr 1
  funext d
  apply Fin.ext
  obtain ⟨e0, e1, -, -⟩ := qidx t
  match d with
  | ⟨0, _⟩ => show win0_0.index t (0 : Fin 2) * 256 + 1 * a.val = 256 * t.val + a.val; rw [e0]; omega
  | ⟨1, _⟩ => show win0_0.index t (1 : Fin 2) * 4096 + 1 * i.val = i.val; rw [e1]; omega

/-- What point `t` writes back is block `t` of the transposed dequantised weight. -/
theorem qflushed_eq (c : Dev nD) (t : Fin cfg0.N) :
    (qdat V c).flushed 1 t = ((cfg0.win 1).blk t).view.read (Elt Ideal) (deqT V c) := by
  show (cfg0.win 1).cut (grid0.coords t) ((qdat V c).after 1 t) = _
  rw [qafter_1, qout_eq]
  have ht : t.val < 16 := lt_of_lt_of_eq t.isLt N_0
  obtain ⟨-, -, e2, e3⟩ := qidx t
  funext y
  obtain ⟨i, a, rfl⟩ : ∃ (i : Fin 4096) (a : Fin 256), y = ix2 i a := ⟨y 0, y 1, eq_ix2 y⟩
  rw [View.read_apply]
  refine (Cert.KernelIdeal.QuantValue.quant_block_apply (qblk V c 0 t) (V c main_arg1) ⟨t.val, ht⟩ (fun a i => qblk_apply V c t a i) i a).trans ?_
  show Cert.ReferenceIdeal.Read.val_main_v15 (F := Ideal) (V c main_arg1) _ = Cert.ReferenceIdeal.Read.val_main_v15 (F := Ideal) (V c main_arg1) _
  congr 1
  funext d
  apply Fin.ext
  match d with
  | ⟨0, _⟩ => show i.val = win0_1.index t (0 : Fin 2) * 4096 + 1 * i.val; rw [e2]; omega
  | ⟨1, _⟩ => show 256 * t.val + a.val = win0_1.index t (1 : Fin 2) * 256 + 1 * a.val; rw [e3]; omega

/-- An index of the output array is in point `t`'s block iff each coordinate is in the block's range. -/
theorem qmem_blk (t : Fin cfg0.N) (i : S4096x4096.Idx) :
    i ∈ ((cfg0.win 1).blk t).view.set ↔ ∀ a : Fin 2, win0_1.index t a * S4096x256.size a ≤ (i a).val ∧ (i a).val < win0_1.index t a * S4096x256.size a + S4096x256.size a := by
  show i ∈ ((View.whole main_v0).slice (win0_1.rect t)).set ↔ _
  rw [View.set_slice_whole, Rect.mem_set_unit]
  exact Iff.rfl

/-- The 16 column stripes tile the output, so it ends at the transposed dequantised weight. -/
theorem qfinal (c : Dev nD) : (qdat V c).arrAt 1 cfg0.N = deqT V c :=
  (qdat V c).arrAt_eq_of_cover 1 (deqT V c) (fun t _ => qflushed_eq V c t) fun i => by
    have hi0 : (i 0).val < 4096 := (i 0).isLt
    have hi1 : (i 1).val < 4096 := (i 1).isLt
    have hN : cfg0.N = 16 := N_0
    refine ⟨⟨(i 1).val / 256, by omega⟩, flush0_1 _, ?_⟩
    rw [qmem_blk]
    obtain ⟨-, -, e2, e3⟩ := qidx ⟨(i 1).val / 256, by omega⟩
    intro a
    match a with
    | ⟨0, _⟩ => show win0_1.index _ (0 : Fin 2) * 4096 ≤ (i 0).val ∧ (i 0).val < win0_1.index _ (0 : Fin 2) * 4096 + 4096; rw [e2]; omega
    | ⟨1, _⟩ => show win0_1.index _ (1 : Fin 2) * 256 ≤ (i 1).val ∧ (i 1).val < win0_1.index _ (1 : Fin 2) * 256 + 256; rw [e3]; dsimp only; omega

end Cert.KernelIdeal.Run

end
-- ==== Proof.MatmulValue.lean ====
/-
  The matmul kernel's three stored values read at one element, and the reference's output element written as the
  same four partial sums. Everything is at the ideal instance: an element is an extended real and every operation is exact.

  * `pay1_apply`: the accumulator starts as 0.
  * `pay2_apply`: one step adds, at `(p, q)`, the sum over the block's 1024 contraction positions `r` of
    `x(p, r) * w(r, q)`.
  * `pay3_apply`: the last step adds the bias row at column `q`.
  * `ref_apply`: the reference's element `(mi, n)` is `((((0 + S 0) + S 1) + S 2) + S 3) + bias n`, where `S k`
    (`kblockSum`) is the part of the 4096-term contraction that falls in the `k`-th block of 1024 positions.
-/
import proofs.«181300_j51196010168686_1_alg».proof.Proof.Gen.KernelIdeal.Skeleton
import proofs.«181300_j51196010168686_1_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.MatmulValue

open Idealize.ShloMosaic Idealize.SL.Sem Idealize.ShloMosaic.ValueIdx
open Cert.KernelIdeal Cert.KernelIdeal.Gen
open scoped BigOperators

/-- The dimension numbers of the block product: rows of the left block against columns of the right block,
    contracting the left block's second axis with the right block's first. -/
abbrev blockDot : DotDims S1024x1024 S1024x1024 S1024x1024 := dot_S1024x1024_S1024x1024_S1024x1024_1_0_0_1_n_n

/-- The left operand's row coordinate is the output's row. -/
theorem blockDot_lhs_row (j : S1024x1024.Idx) (k : blockDot.contr.Idx) :
    (blockDot.lhsIdx j k 0).val = (j 0).val := by
  unfold DotDims.lhsIdx
  rw [dif_neg (show ¬(0 : Fin S1024x1024.rank) ∈ blockDot.lhsBatch by decide),
    dif_pos (show (0 : Fin S1024x1024.rank) ∈ blockDot.lhsNonContracting by decide)]
  rfl

/-- The left operand's column coordinate is the contraction position. -/
theorem blockDot_lhs_col (j : S1024x1024.Idx) (k : blockDot.contr.Idx) :
    (blockDot.lhsIdx j k 1).val = (k ⟨0, by decide⟩).val :=
  blockDot.lhsIdx_val_of_single rfl j k

/-- The right operand's row coordinate is the contraction position. -/
theorem blockDot_rhs_row (j : S1024x1024.Idx) (k : blockDot.contr.Idx) :
    (blockDot.rhsIdx j k 0).val = (k ⟨0, by decide⟩).val :=
  blockDot.rhsIdx_val_of_single rfl j k

/-- The right operand's column coordinate is the output's column. -/
theorem blockDot_rhs_col (j : S1024x1024.Idx) (k : blockDot.contr.Idx) :
    (blockDot.rhsIdx j k 1).val = (j 1).val := by
  unfold DotDims.rhsIdx
  rw [dif_neg (show ¬(1 : Fin S1024x1024.rank) ∈ blockDot.rhsBatch by decide),
    dif_pos (show (1 : Fin S1024x1024.rank) ∈ blockDot.rhsNonContracting by decide)]
  rfl

/-- The block product into the zero accumulator, read at row `p`, column `q`: the sum over the 1024
    contraction positions `r` of (left at `(p, r)`) times (right at `(r, q)`). -/
theorem blockDot_zero_apply (a : FVec Ideal S1024x1024 .bf16) (b : FVec Ideal S1024x1024 .bf16) (p q : Fin 1024) :
    FloatOps.matmul blockDot none a b (constant (F := Ideal) S1024x1024 .f32 0x00000000#32) (ix2 p q)
      = ∑ r : Fin 1024, a (ix2 p r) * b (ix2 r q) := by
  rw [Ideal.matmul_constant_zero_apply, ← Equiv.sum_comp (contrEquiv1 blockDot 1024 rfl rfl).symm]
  refine Finset.sum_congr rfl fun r _ => ?_
  have hr := contrEquiv1_symm_val blockDot 1024 rfl rfl r
  have el : blockDot.lhsIdx (ix2 p q) ((contrEquiv1 blockDot 1024 rfl rfl).symm r) = ix2 p r :=
    funext fun ax => Fin.ext (by
      match ax with
      | ⟨0, _⟩ => exact blockDot_lhs_row _ _
      | ⟨1, _⟩ => exact (blockDot_lhs_col _ _).trans hr)
  have er : blockDot.rhsIdx (ix2 p q) ((contrEquiv1 blockDot 1024 rfl rfl).symm r) = ix2 r q :=
    funext fun ax => Fin.ext (by
      match ax with
      | ⟨0, _⟩ => exact (blockDot_rhs_row _ _).trans hr
      | ⟨1, _⟩ => exact blockDot_rhs_col _ _)
  rw [el, er]

/-- The accumulator's first value: the zero word broadcast over the block (a shape cast to the same shape changes
    nothing), and the zero word is the real number 0. -/
theorem pay1_apply (y : S1024x1024.Idx) : k1_pay1 (F := Ideal) y = 0 := by
  unfold k1_pay1
  rw [shapeCast_self]
  exact Ideal.ofBits_zero_f32

/-- One accumulation step at `(p, q)`: the accumulator there plus the product of the `x` block's row `p` with the
    dequantised block's column `q`. The narrowing of the `x` block to bf16 is the identity on the ideal values, the
    two shape casts are to the same shape, and the product is taken into the zero accumulator. -/
theorem pay2_apply (xb acc : Vec Ideal S1024x1024 .f32) (wb : Vec Ideal S1024x1024 .bf16) (p q : Fin 1024) :
    k1_pay2 (F := Ideal) xb acc wb (ix2 p q) = acc (ix2 p q) + ∑ r : Fin 1024, xb (ix2 p r) * wb (ix2 r q) := by
  unfold k1_pay2
  rw [shapeCast_self, shapeCast_self, addf_apply]
  refine congrArg (acc (ix2 p q) + ·) ?_
  refine (blockDot_zero_apply (truncf .bf16 xb bitsLt_bf16_f32) wb p q).trans ?_
  refine Finset.sum_congr rfl fun r _ => ?_
  rw [truncf_apply]

/-- The last step at `(p, q)`: the accumulator there plus the bias row at column `q` (the `[1, 1024]` bias block is
    broadcast down the 1024 rows). -/
theorem pay3_apply (acc : Vec Ideal S1024x1024 .f32) (bb : Vec Ideal S1x1024 .f32) (p q : Fin 1024) :
    k1_pay3 (F := Ideal) acc bb (ix2 p q) = acc (ix2 p q) + bb (ix2 (0 : Fin 1) q) := by
  unfold k1_pay3
  rw [shapeCast_self, addf_apply, broadcastTo_1b_ab_apply]

/-! ## The reference's element as four partial sums -/

/-- A sum over `Fin 4096` is the sum, over the four blocks `k` of 1024 consecutive positions, of the sums over
    the positions `1024 * k + r` inside the block. -/
theorem sum_fin4096_blocks {M : Type*} [AddCommMonoid M] (f : Fin 4096 → M) :
    ∑ i : Fin 4096, f i
      = ∑ k : Fin 4, ∑ r : Fin 1024, f ⟨1024 * k.val + r.val, by have := k.isLt; have := r.isLt; omega⟩ := by
  rw [← Equiv.sum_comp (finProdFinEquiv : Fin 4 × Fin 1024 ≃ Fin 4096) f, Fintype.sum_prod_type]
  refine Finset.sum_congr rfl fun k _ => Finset.sum_congr rfl fun r _ => congrArg f (Fin.ext ?_)
  exact Nat.add_comm _ _

/-- The partial product over K-block `k` (positions `1024 * k + r`, `r < 1024`) of row `mi` of `x` with column `n`
    of the reference's transposed dequantised weight. -/
def kblockSum (x0 : (⟨Cert.ReferenceIdeal.S8192x4096, .f32⟩ : BufTy).Contents (Elt Ideal))
    (x1 : (⟨Cert.ReferenceIdeal.S4096x4096, .f32⟩ : BufTy).Contents (Elt Ideal)) (mi : Fin 8192) (n : Fin 4096) (k : Fin 4) : EReal :=
  ∑ r : Fin 1024,
    x0 (ix2 mi (⟨1024 * k.val + r.val, by have := k.isLt; have := r.isLt; omega⟩ : Fin 4096))
      * Cert.ReferenceIdeal.Read.val_main_v15 (F := Ideal) x1
          (ix2 (⟨1024 * k.val + r.val, by have := k.isLt; have := r.isLt; omega⟩ : Fin 4096) n)

/-- The reference's output at `(mi, n)`: the contraction over 4096 positions split into the four K-blocks, summed
    from zero in block order, plus the bias at `n`. Only regrouping of a finite sum in a commutative monoid. -/
theorem ref_apply (x0 : (⟨Cert.ReferenceIdeal.S8192x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal)) (mi : Fin 8192) (n : Fin 4096) :
    Cert.ReferenceIdeal.Read.val_main_v19 (F := Ideal) x0 x1 x2 (ix2 mi n)
      = ((((0 + kblockSum x0 x1 mi n 0) + kblockSum x0 x1 mi n 1) + kblockSum x0 x1 mi n 2) + kblockSum x0 x1 mi n 3)
          + x2 (ix1 n) := by
  rw [Cert.ReferenceIdeal.Read.val_main_v19_apply, Cert.ReferenceIdeal.Read.val_main_v18_apply,
    Cert.ReferenceIdeal.Read.val_main_v17_apply, Cert.ReferenceIdeal.Read.val_main_v16_apply]
  unfold kblockSum
  generalize Cert.ReferenceIdeal.Read.val_main_v15 (F := Ideal) x1 = w
  -- the bias is read at the column
  have hb : x2 (Cert.ReferenceIdeal.Read.idx_main_v17 (Cert.ReferenceIdeal.Read.idx_main_v18 (ix2 mi n))) = x2 (ix1 n) :=
    congrArg x2 (funext fun a => match a with | ⟨0, _⟩ => rfl)
  -- the contraction's operand indices at position `k` are `(mi, k)` and `(k, n)`
  have hl : ∀ k : Fin 4096, Cert.ReferenceIdeal.Read.lidx_main_v16 (ix2 mi n) k = ix2 mi k :=
    fun k => funext fun a => match a with | ⟨0, _⟩ => rfl | ⟨1, _⟩ => rfl
  have hr : ∀ k : Fin 4096, Cert.ReferenceIdeal.Read.ridx_main_v16 (ix2 mi n) k = ix2 k n :=
    fun k => funext fun a => match a with | ⟨0, _⟩ => rfl | ⟨1, _⟩ => rfl
  have hsum : (∑ k : Fin 4096, x0 (Cert.ReferenceIdeal.Read.lidx_main_v16 (ix2 mi n) k)
        * w (Cert.ReferenceIdeal.Read.ridx_main_v16 (ix2 mi n) k))
      = ∑ k : Fin 4096, x0 (ix2 mi k) * w (ix2 k n) :=
    Finset.sum_congr rfl fun k _ => by rw [hl k, hr k]
  rw [hsum, hb, sum_fin4096_blocks, Fin.sum_univ_four, zero_add]
  rfl

end Cert.KernelIdeal.MatmulValue

end
-- ==== Proof.MatmulPieces.lean ====
/-
  What the matrix-product body leaves, as values. At any float instance: in each of the three control cases the
  accumulator ends at one accumulation step applied to the point's blocks (from the zero block when the K block is 0, from
  what the point before left otherwise), and when the K block is 3 the output block ends at that value plus the bias row.
  Then, at the ideal values, the four points of one output block unrolled: the output block at `(p, q)` is
  `((((0 + d₀) + d₁) + d₂) + d₃) + bias q`, where `dₖ` is the product of the `k`-th point's `x` block row `p` with its weight
  block column `q`.
-/
import proofs.«181300_j51196010168686_1_alg».proof.Proof.MatmulRegion
import proofs.«181300_j51196010168686_1_alg».proof.Proof.MatmulValue
import Idealize.ShloMosaic.Lib.Pipeline.Value
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL.Sem
open scoped BigOperators

variable {F : FTy → Type} [FloatOps F]

/-- The zero offset of a whole-block rectangle, as a function. -/
theorem hz : (![0, 0] : Fin 2 → Nat) = fun _ => 0 := funext fun a => by fin_cases a <;> rfl

/-- Middle K blocks: the accumulator ends at the one covering store's value, the step applied to the point's blocks and the
    accumulator the point before left. -/
theorem accMid_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : ¬kLast i) (x0 : Vec F S1024x1024 .f32) (x1 : Vec F S1024x1024 .bf16) (x2 : Vec F S1x1024 .f32) (xs : Vec F S1024x1024 .f32) :
    accMid c i arg3 harg3 arg4 harg4 arg5 harg5 arg6 harg6 arg7 harg7 hc0 hc1 x0 x1 x2 xs = k1_pay2 x0 xs x1 := by
  unfold accMid
  rw [View.read_writes_eq_canon _ _ _ (accMid_cover c i arg3 harg3 arg4 harg4 arg5 harg5 arg6 harg6 arg7 harg7 hc0 hc1 x0 x1 x2 xs)]
  unfold runMid
  dsimp only
  rw [View.canon_unit_zero hz]
  simp only [View.readAt_eq_ld, harg3.read_unread, harg4.read_unread, harg7.read_unread, View.ld_unit_zero (S := S1024x1024) hz]

/-- Last K block: the accumulator ends at the same step's value. -/
theorem accLast_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : kLast i) (x0 : Vec F S1024x1024 .f32) (x1 : Vec F S1024x1024 .bf16) (x2 : Vec F S1x1024 .f32) (xs : Vec F S1024x1024 .f32) :
    accLast c i arg3 harg3 arg4 harg4 arg5 harg5 arg6 harg6 arg7 harg7 hc0 hc1 x0 x1 x2 xs = k1_pay2 x0 xs x1 := by
  unfold accLast
  rw [View.read_writes_eq_canon _ _ _ (accLast_cover c i arg3 harg3 arg4 harg4 arg5 harg5 arg6 harg6 arg7 harg7 hc0 hc1 x0 x1 x2 xs)]
  unfold runLast
  dsimp only
  sl_unfold_words
  rw [View.canon_unit_zero hz]
  simp only [View.readAt_eq_ld, harg3.read_unread, harg4.read_unread, harg7.read_unread, View.ld_unit_zero (S := S1024x1024) hz]

/-- Last K block: the output block is the step's value, read back from the accumulator, plus the bias row. -/
theorem outLast_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬kFirst i) (hc1 : kLast i) (x0 : Vec F S1024x1024 .f32) (x1 : Vec F S1024x1024 .bf16) (x2 : Vec F S1x1024 .f32) (xs : Vec F S1024x1024 .f32) :
    outLast c i arg3 harg3 arg4 harg4 arg5 harg5 arg6 harg6 arg7 harg7 hc0 hc1 x0 x1 x2 xs = k1_pay3 (k1_pay2 x0 xs x1) x2 := by
  unfold outLast
  rw [View.read_writes_eq_canon _ _ _ (outLast_cover c i arg3 harg3 arg4 harg4 arg5 harg5 arg6 harg6 arg7 harg7 hc0 hc1 x0 x1 x2 xs)]
  unfold runLast
  dsimp only
  sl_unfold_words
  rw [View.canon_unit_zero hz]
  simp only [View.readAt_eq_ld, harg3.read_unread, harg4.read_unread, harg5.read_unread, harg7.read_unread, View.ld_unit_zero (S := S1024x1024) hz, View.ld_unit_zero (S := S1x1024) hz, View.readCov_unit_zero (S := S1024x1024) _ hz]

/-- First K block: the accumulator is zeroed, read back, and ends at the step's value from the zero block. -/
theorem accFirst_eq (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : kFirst i) (hc1 : ¬kLast i) (x0 : Vec F S1024x1024 .f32) (x1 : Vec F S1024x1024 .bf16) (x2 : Vec F S1x1024 .f32) :
    accFirst c i arg3 harg3 arg4 harg4 arg5 harg5 arg6 harg6 arg7 harg7 hc0 hc1 x0 x1 x2 = k1_pay2 x0 (k1_pay1 (F := F)) x1 := by
  unfold accFirst
  rw [View.read_writes_eq_canon _ _ _ (accFirst_cover c i arg3 harg3 arg4 harg4 arg5 harg5 arg6 harg6 arg7 harg7 hc0 hc1 x0 x1 x2)]
  unfold runFirst
  dsimp only
  sl_unfold_words
  rw [View.canon_cons_unit_zero (S := S1024x1024) hz]
  simp only [View.readAt_eq_ld, harg3.read_unread, harg4.read_unread, View.ld_unit_zero (S := S1024x1024) hz, View.readCov_unit_zero (S := S1024x1024) _ hz]

/-! ## The four steps of one output block, at the ideal values -/

section Unroll

open Idealize.ShloMosaic.ValueIdx Cert.KernelIdeal.MatmulValue

/-- The product of an `x` block's row `p` with a weight block's column `q`: the sum over the 1024 contraction positions. -/
def dotOf (xb : Vec Ideal S1024x1024 .f32) (wb : Vec Ideal S1024x1024 .bf16) (p q : Fin 1024) : EReal :=
  ∑ r : Fin 1024, xb (ix2 p r) * wb (ix2 r q)

variable (V : (c : Dev nD) → (b : Ref sig .tc) → Buf (Elt Ideal) ((c : Thread nD τ).loc b))

/-- That product for point `n`'s two input blocks. -/
def dotAt (c : Dev nD) (n : ℕ) (hn : n < cfg1.N) (p q : Fin 1024) : EReal :=
  dotOf (mblk V c 0 ⟨n, hn⟩) (mblk V c 1 ⟨n, hn⟩) p q

/-- The point's product, once its two blocks are known as functions of the block index. -/
theorem dotAt_eq (c : Dev nD) (n : ℕ) (hn : n < cfg1.N) (p q : Fin 1024)
    (xb : Vec Ideal S1024x1024 .f32) (wb : Vec Ideal S1024x1024 .bf16)
    (hx : mblk V c 0 ⟨n, hn⟩ = xb) (hw : mblk V c 1 ⟨n, hn⟩ = wb) :
    dotAt V c n hn p q = ∑ r : Fin 1024, xb (ix2 p r) * wb (ix2 r q) := by
  unfold dotAt; rw [hx, hw]; rfl

/-- One accumulation step at `(p, q)` adds the blocks' product to the accumulator there. -/
theorem step_apply (xb acc : Vec Ideal S1024x1024 .f32) (wb : Vec Ideal S1024x1024 .bf16) (p q : Fin 1024) :
    k1_pay2 (F := Ideal) xb acc wb (ix2 p q) = acc (ix2 p q) + dotOf xb wb p q :=
  pay2_apply xb acc wb p q

/-- After a point whose K block is 0 the accumulator holds `0 +` the point's product. -/
theorem acc_first_apply (c : Dev nD) (n : ℕ) (hn : n < cfg1.N) (h : n % 4 = 0) (p q : Fin 1024) :
    (accAt (F := Ideal) V c n hn).2 (ix2 p q) = 0 + dotAt V c n hn p q := by
  show (accAt (F := Ideal) V c (⟨n, hn⟩ : Fin cfg1.N).val (⟨n, hn⟩ : Fin cfg1.N).isLt).2 (ix2 p q) = _
  rw [accAt_first V c ⟨n, hn⟩ h (by dsimp only; omega)]
  dsimp only
  rw [accFirst_eq]
  refine (step_apply _ _ _ p q).trans ?_
  rw [pay1_apply (ix2 p q)]
  rfl

/-- After a point whose K block is not 0 the accumulator holds what the point before left plus the point's product. -/
theorem acc_step_apply (c : Dev nD) (n : ℕ) (hn : n < cfg1.N) (h : ¬n % 4 = 0) (p q : Fin 1024) :
    (accAt (F := Ideal) V c n hn).2 (ix2 p q)
      = (accAt (F := Ideal) V c (n - 1) (Nat.lt_of_le_of_lt (Nat.sub_le _ _) hn)).2 (ix2 p q) + dotAt V c n hn p q := by
  show (accAt (F := Ideal) V c (⟨n, hn⟩ : Fin cfg1.N).val (⟨n, hn⟩ : Fin cfg1.N).isLt).2 (ix2 p q) = _
  by_cases h1 : n % 4 = 3
  · rw [accAt_last V c ⟨n, hn⟩ h h1]
    dsimp only
    rw [accLast_eq]
    exact step_apply _ _ _ p q
  · rw [accAt_mid V c ⟨n, hn⟩ h h1]
    dsimp only
    rw [accMid_eq]
    exact step_apply _ _ _ p q

/-- The same with the point before named: the accumulator after point `m + 1` (K block not 0) is the accumulator after
    point `m` plus the product of point `m + 1`. -/
theorem acc_succ_apply (c : Dev nD) (n m : ℕ) (hn : n < cfg1.N) (hm : m < cfg1.N) (hnm : n = m + 1) (h : ¬n % 4 = 0)
    (p q : Fin 1024) :
    (accAt (F := Ideal) V c n hn).2 (ix2 p q) = (accAt (F := Ideal) V c m hm).2 (ix2 p q) + dotAt V c n hn p q := by
  subst hnm
  exact acc_step_apply V c (m + 1) hn h p q

/-- After a point whose K block is 3 the output block holds what the accumulator held before the point, plus the point's
    product, plus the bias row. -/
theorem out_last_apply (c : Dev nD) (n m : ℕ) (hn : n < cfg1.N) (hm : m < cfg1.N) (hnm : n = m + 1) (h : n % 4 = 3) (p q : Fin 1024) :
    (accAt (F := Ideal) V c n hn).1 (ix2 p q)
      = ((accAt (F := Ideal) V c m hm).2 (ix2 p q) + dotAt V c n hn p q)
          + (mblk V c 2 ⟨n, hn⟩) (ix2 (0 : Fin 1) q) := by
  subst hnm
  show (accAt (F := Ideal) V c (⟨m + 1, hn⟩ : Fin cfg1.N).val (⟨m + 1, hn⟩ : Fin cfg1.N).isLt).1 (ix2 p q) = _
  rw [accAt_last V c ⟨m + 1, hn⟩ (by dsimp only; omega) h]
  dsimp only
  rw [outLast_eq]
  refine (pay3_apply _ _ p q).trans ?_
  rw [step_apply (mblk V c 0 ⟨m + 1, hn⟩) _ (mblk V c 1 ⟨m + 1, hn⟩) p q]
  rfl

/-- One output block, unrolled: at a point `t` whose K block is 3, the output block at `(p, q)` is the four points' products
    added from zero in point order, plus the bias row at column `q`. -/
theorem out_block_apply (c : Dev nD) (t : Fin cfg1.N) (h : t.val % 4 = 3) (p q : Fin 1024) :
    (accAt (F := Ideal) V c t.val t.isLt).1 (ix2 p q)
      = ((((0 + dotAt V c (t.val - 3) (Nat.lt_of_le_of_lt (Nat.sub_le _ _) t.isLt) p q)
            + dotAt V c (t.val - 2) (Nat.lt_of_le_of_lt (Nat.sub_le _ _) t.isLt) p q)
            + dotAt V c (t.val - 1) (Nat.lt_of_le_of_lt (Nat.sub_le _ _) t.isLt) p q)
            + dotAt V c t.val t.isLt p q)
          + (mblk V c 2 t) (ix2 (0 : Fin 1) q) := by
  have e3 := out_last_apply V c t.val (t.val - 1) t.isLt (Nat.lt_of_le_of_lt (Nat.sub_le _ _) t.isLt) (by omega) h p q
  have e2 := acc_succ_apply V c (t.val - 1) (t.val - 2) (Nat.lt_of_le_of_lt (Nat.sub_le _ _) t.isLt)
    (Nat.lt_of_le_of_lt (Nat.sub_le _ _) t.isLt) (by omega) (by omega) p q
  have e1 := acc_succ_apply V c (t.val - 2) (t.val - 3) (Nat.lt_of_le_of_lt (Nat.sub_le _ _) t.isLt)
    (Nat.lt_of_le_of_lt (Nat.sub_le _ _) t.isLt) (by omega) (by omega) p q
  have e0 := acc_first_apply V c (t.val - 3) (Nat.lt_of_le_of_lt (Nat.sub_le _ _) t.isLt) (by omega) p q
  rw [e3, e2, e1, e0]

end Unroll

end Cert.KernelIdeal.Run

end
-- ==== Proof.MatmulFinal.lean ====
/-
  What the second kernel region leaves in the result array, over the extended reals. The grid point `t = 16·i + 4·j + k`
  (row block `i` of 8, column block `j` of 4, K block `k` of 4) stages rows 1024·i … of x against columns 1024·k …, rows
  1024·k … of the transposed weight against columns 1024·j …, and the bias row's columns 1024·j …; the output block (i, j) is
  written back once, after its fourth point. There it holds, at (p, q), the four K-block partial products of row 1024·i + p of x
  with column 1024·j + q of the transposed weight, added from zero in K order, plus the bias at that column. The 32 output
  blocks tile the result, so the array ends at that one function of the three arrays the region finds.
-/
import proofs.«181300_j51196010168686_1_alg».proof.Proof.MatmulPieces
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

/-- The K-block `k` part of the product of row `mi` of `X` with column `n` of `Wt`. -/
def kpart (X : S8192x4096.Idx → EReal) (Wt : S4096x4096.Idx → EReal) (mi : Fin 8192) (n : Fin 4096) (k : Fin 4) : EReal :=
  ∑ r : Fin 1024,
    X (ix2 mi (⟨1024 * k.val + r.val, by have := k.isLt; have := r.isLt; omega⟩ : Fin 4096))
      * Wt (ix2 (⟨1024 * k.val + r.val, by have := k.isLt; have := r.isLt; omega⟩ : Fin 4096) n)

/-- The result's element: the four parts added from zero in K order, plus the bias row at the column. -/
def outFn (X : S8192x4096.Idx → EReal) (Wt : S4096x4096.Idx → EReal) (B : S1x4096.Idx → EReal) (mi : Fin 8192) (n : Fin 4096) : EReal :=
  ((((0 + kpart X Wt mi n 0) + kpart X Wt mi n 1) + kpart X Wt mi n 2) + kpart X Wt mi n 3) + B (ix2 (0 : Fin 1) n)

variable (V : (c : Dev nD) → (b : Ref sig .tc) → Buf (Elt Ideal) ((c : Thread nD τ).loc b))

/-- The result array as that function of the three arrays the region finds. -/
def mresult (c : Dev nD) : Buf (Elt Ideal) ((c : Thread nD τ).loc main_v2) :=
  fun i => outFn (V c main_arg0) (V c main_v0) (V c main_v1) ⟨(i 0).val, idx2_lt0 i⟩ ⟨(i 1).val, idx2_lt1 i⟩

/-- The index maps over the grid. -/
theorem midx : ∀ t : Fin cfg1.N, win1_0.index t (0 : Fin 2) = t.val / 16 ∧ win1_0.index t (1 : Fin 2) = t.val % 4
    ∧ win1_1.index t (0 : Fin 2) = t.val % 4 ∧ win1_1.index t (1 : Fin 2) = t.val / 4 % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

theorem tlt (t : Fin cfg1.N) : t.val < 128 := lt_of_lt_of_eq t.isLt N_1

/-- The x window's block at point `t`. -/
theorem mblk0_apply (c : Dev nD) (t : Fin cfg1.N) (p r : Fin 1024) :
    (mblk V c 0 t : Vec Ideal S1024x1024 .f32) (ix2 p r)
      = V c main_arg0 (ix2 (⟨1024 * (t.val / 16) + p.val, by have := tlt t; omega⟩ : Fin 8192)
          (⟨1024 * (t.val % 4) + r.val, by omega⟩ : Fin 4096)) := by
  unfold mblk
  rw [View.read_apply]
  show V c main_arg0 _ = V c main_arg0 _
  congr 1
  funext d
  apply Fin.ext
  obtain ⟨e0, e1, -⟩ := midx t
  match d with
  | ⟨0, _⟩ => show win1_0.index t (0 : Fin 2) * 1024 + 1 * p.val = 1024 * (t.val / 16) + p.val; rw [e0]; omega
  | ⟨1, _⟩ => show win1_0.index t (1 : Fin 2) * 1024 + 1 * r.val = 1024 * (t.val % 4) + r.val; rw [e1]; omega

/-- The transposed-weight window's block at point `t`. -/
theorem mblk1_apply (c : Dev nD) (t : Fin cfg1.N) (r q : Fin 1024) :
    (mblk V c 1 t : Vec Ideal S1024x1024 .bf16) (ix2 r q)
      = V c main_v0 (ix2 (⟨1024 * (t.val % 4) + r.val, by omega⟩ : Fin 4096)
          (⟨1024 * (t.val / 4 % 4) + q.val, by omega⟩ : Fin 4096)) := by
  unfold mblk
  rw [View.read_apply]
  show V c main_v0 _ = V c main_v0 _
  congr 1
  funext d
  apply Fin.ext
  obtain ⟨-, -, e2, e3, -⟩ := midx t
  match d with
  | ⟨0, _⟩ => show win1_1.index t (0 : Fin 2) * 1024 + 1 * r.val = 1024 * (t.val % 4) + r.val; rw [e2]; omega
  | ⟨1, _⟩ => show win1_1.index t (1 : Fin 2) * 1024 + 1 * q.val = 1024 * (t.val / 4 % 4) + q.val; rw [e3]; omega

/-- The bias window's block at point `t`. -/
theorem mblk2_apply (c : Dev nD) (t : Fin cfg1.N) (q : Fin 1024) :
    (mblk V c 2 t : Vec Ideal S1x1024 .f32) (ix2 (0 : Fin 1) q)
      = V c main_v1 (ix2 (0 : Fin 1) (⟨1024 * (t.val / 4 % 4) + q.val, by omega⟩ : Fin 4096)) := by
  unfold mblk
  rw [View.read_apply]
  show V c main_v1 _ = V c main_v1 _
  congr 1
  funext d
  apply Fin.ext
  obtain ⟨-, -, -, -, e4, e5, -⟩ := midx t
  match d with
  | ⟨0, _⟩ => show win1_2.index t (0 : Fin 2) * 1 + 1 * 0 = 0; rw [e4]
  | ⟨1, _⟩ => show win1_2.index t (1 : Fin 2) * 1024 + 1 * q.val = 1024 * (t.val / 4 % 4) + q.val; rw [e5]; omega

/-- A point's block product is the K-block part of the whole product, at the point's row, column and K block. -/
theorem dot_part (c : Dev nD) (n : ℕ) (hn : n < cfg1.N) (p q : Fin 1024) (mi : Fin 8192) (nn : Fin 4096) (k : Fin 4)
    (hmi : mi.val = 1024 * (n / 16) + p.val) (hnn : nn.val = 1024 * (n / 4 % 4) + q.val) (hk : k.val = n % 4) :
    dotAt V c n hn p q = kpart (V c main_arg0) (V c main_v0) mi nn k := by
  obtain ⟨mi, hmi'⟩ := mi
  obtain ⟨nn, hnn'⟩ := nn
  obtain ⟨k, hk'⟩ := k
  dsimp only at hmi hnn hk
  subst hmi hnn hk
  unfold dotAt dotOf kpart
  refine Finset.sum_congr rfl fun r _ => ?_
  rw [mblk0_apply V c ⟨n, hn⟩ p r, mblk1_apply V c ⟨n, hn⟩ r q]

/-- What a flushing point writes back is its block of the result function. -/
theorem mflushed_eq (c : Dev nD) (t : Fin cfg1.N) (hf : (cfg1.win 3).flush t = true) :
    (mdat V c).flushed 3 t = ((cfg1.win 3).blk t).view.read (Elt Ideal) (mresult V c) := by
  have h3 : t.val % 4 = 3 := (flush1_3 t).mp hf
  have hN : t.val < 128 := tlt t
  show (cfg1.win 3).cut (grid1.coords t) ((mdat V c).after 3 t) = _
  rw [mafter_3]
  funext y
  obtain ⟨p, q, rfl⟩ : ∃ (p q : Fin 1024), y = ix2 p q := ⟨y 0, y 1, eq_ix2 y⟩
  rw [View.read_apply]
  refine (out_block_apply V c t h3 p q).trans ?_
  obtain ⟨-, -, -, -, -, -, e6, e7⟩ := midx t
  have key : ∀ (M : Fin 8192) (N : Fin 4096), M.val = 1024 * (t.val / 16) + p.val → N.val = 1024 * (t.val / 4 % 4) + q.val →
      ((((0 + dotAt V c (t.val - 3) (Nat.lt_of_le_of_lt (Nat.sub_le _ _) t.isLt) p q)
            + dotAt V c (t.val - 2) (Nat.lt_of_le_of_lt (Nat.sub_le _ _) t.isLt) p q)
            + dotAt V c (t.val - 1) (Nat.lt_of_le_of_lt (Nat.sub_le _ _) t.isLt) p q)
            + dotAt V c t.val t.isLt p q)
          + (mblk V c 2 t) (ix2 (0 : Fin 1) q)
        = outFn (V c main_arg0) (V c main_v0) (V c main_v1) M N := by
    intro M N hM hN'
    unfold outFn
    rw [dot_part V c (t.val - 3) _ p q M N 0 (by omega) (by omega) (by show 0 = _; omega),
      dot_part V c (t.val - 2) _ p q M N 1 (by omega) (by omega) (by show 1 = _; omega),
      dot_part V c (t.val - 1) _ p q M N 2 (by omega) (by omega) (by show 2 = _; omega),
      dot_part V c t.val t.isLt p q M N 3 (by omega) (by omega) (by show 3 = _; omega),
      mblk2_apply V c t q]
    congr 2
    funext d
    apply Fin.ext
    match d with
    | ⟨0, _⟩ => rfl
    | ⟨1, _⟩ => exact hN'.symm
  refine key _ _ ?_ ?_
  · show win1_3.index t (0 : Fin 2) * 1024 + 1 * p.val = _; rw [e6]; omega
  · show win1_3.index t (1 : Fin 2) * 1024 + 1 * q.val = _; rw [e7]; omega

/-- An index of the result array is in point `t`'s block iff each coordinate is in the block's range. -/
theorem mmem_blk (t : Fin cfg1.N) (i : S8192x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v2).slice (win1_3.rect t)).set ↔ _
  rw [View.set_slice_whole, Rect.mem_set_unit]
  exact Iff.rfl

/-- The 32 output blocks tile the result, so it ends at the result function. -/
theorem mfinal (c : Dev nD) : (mdat V c).arrAt 3 cfg1.N = mresult V c :=
  (mdat V c).arrAt_eq_of_cover 3 (mresult V c) (fun t hf => mflushed_eq V c t hf) fun i => by
    have hi0 : (i 0).val < 8192 := idx2_lt0 i
    have hi1 : (i 1).val < 4096 := idx2_lt1 i
    have hN : cfg1.N = 128 := N_1
    refine ⟨⟨16 * ((i 0).val / 1024) + 4 * ((i 1).val / 1024) + 3, by omega⟩, (flush1_3 _).mpr (by dsimp only; omega), ?_⟩
    rw [mmem_blk]
    obtain ⟨-, -, -, -, -, -, e6, e7⟩ := midx ⟨16 * ((i 0).val / 1024) + 4 * ((i 1).val / 1024) + 3, by omega⟩
    intro a
    match a with
    | ⟨0, _⟩ => show win1_3.index _ (0 : Fin 2) * 1024 ≤ (i 0).val ∧ (i 0).val < win1_3.index _ (0 : Fin 2) * 1024 + 1024; rw [e6]; dsimp only; omega
    | ⟨1, _⟩ => show win1_3.index _ (1 : Fin 2) * 1024 ≤ (i 1).val ∧ (i 1).val < win1_3.index _ (1 : Fin 2) * 1024 + 1024; rw [e7]; dsimp only; omega

end Cert.KernelIdeal.Run

end
-- ==== Proof.Bridge.lean ====
/-
  The kernel's result array is the reference's result, over the extended reals. What the second region finds when it is
  entered: x as launched; the transposed dequantised weight the first region left (the reference's own transposed stage of the
  weight as launched); the bias reshaped to a row. So the result array — the four K-block partial products of a row of x with a
  column of that weight, added from zero in K order, plus the bias at the column — is the reference's contraction over all 4096
  positions plus the bias: the same finite sum, regrouped.
-/
import proofs.«181300_j51196010168686_1_alg».proof.Proof.Run
import proofs.«181300_j51196010168686_1_alg».proof.Proof.QuantFinal
import proofs.«181300_j51196010168686_1_alg».proof.Proof.MatmulFinal
import Idealize.ShloMosaic.Lib.StableHlo.Run
import Idealize.ShloMosaic.Lib.ValueLayout

set_option maxRecDepth 16384

noncomputable section

namespace Cert.KernelIdeal.Run

open Cert.KernelIdeal Cert.KernelIdeal.Gen Cert.KernelIdeal.MatmulValue
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The second region finds x as launched, -/
theorem V2_x (c : Dev nD) : V2 m ρ c main_arg0 = m ((c : Thread nD τ).loc main_arg0) :=
  (W2_of_ne m ρ c main_arg0 (by decide)).trans ((W1_of_ne m ρ c main_arg0 (by decide)).trans rfl)

/-- the transposed dequantised weight of the weight as launched, -/
theorem V2_wt (c : Dev nD) : V2 m ρ c main_v0 = deqT (V0 m ρ) c :=
  (W2_of_ne m ρ c main_v0 (by decide)).trans ((W1_arr m ρ c 1).trans (qfinal (V0 m ρ) c))

/-- and the bias as a row. -/
theorem V2_bias (c : Dev nD) (n : Fin 4096) :
    V2 m ρ c main_v1 (ix2 (0 : Fin 1) n) = m ((c : Thread nD τ).loc main_arg2) (ix1 n) := by
  have e : (V2 m ρ c main_v1 : S1x4096.Idx → EReal)
      = shapeCast S1x4096 (W1 m ρ c (Proc.devRef .tc main_arg2)) shapeCasts_S4096_S1x4096 := by
    show StableHlo.after hostOps1 (W1 m ρ c) (Proc.devRef .tc main_v1) = _
    after_results
    rfl
  rw [e, shapeCast_a_1a_apply, W1_of_ne m ρ c main_arg2 (by decide)]

/-- Each K-block part is the reference's. -/
theorem kpart_eq (c : Dev nD) (mi : Fin 8192) (n : Fin 4096) (k : Fin 4) :
    kpart (V2 m ρ c main_arg0) (V2 m ρ c main_v0) mi n k
      = kblockSum (m ((c : Thread nD τ).loc main_arg0)) (m ((c : Thread nD τ).loc main_arg1)) mi n k := by
  unfold kpart kblockSum
  rw [V2_x, V2_wt]

/-- THE BRIDGE: the result array after the run is the reference's result stage of the arrays as launched. -/
theorem result_eq (c : Dev nD) :
    (mdat (V2 m ρ) c).arrAt 3 cfg1.N
      = Cert.ReferenceIdeal.Read.val_main_v19 (F := Ideal) (m ((c : Thread nD τ).loc main_arg0))
          (m ((c : Thread nD τ).loc main_arg1)) (m ((c : Thread nD τ).loc main_arg2)) := by
  rw [mfinal (V2 m ρ) c]
  funext i
  obtain ⟨mi, n, rfl⟩ : ∃ (mi : Fin 8192) (n : Fin 4096), i = ix2 mi n := ⟨i 0, i 1, eq_ix2 i⟩
  rw [ref_apply]
  show outFn (V2 m ρ c main_arg0) (V2 m ρ c main_v0) (V2 m ρ c main_v1) mi n = _
  unfold outFn
  rw [kpart_eq, kpart_eq, kpart_eq, kpart_eq, V2_bias]

end Cert.KernelIdeal.Run

end
-- ==== Proof.lean ====
/-
  The certificate of the int4 group-quantised linear layer: a two-region kernel (a quantiser that writes the dequantised weight
  transposed, then a K-blocked matrix product with a carried accumulator and a bias epilogue) against the jnp reference
  x · deq(w)ᵀ + b.
  * The three frames: the kernel at the word level and its idealisation run through their three items — region, the bias
    reshape, region — and end with the arguments as launched; the reference is a straight line of host operations.
  * The idealisation rewrote nothing.
  * Over the extended reals the two results are one function of the arguments: the kernel's result array is the reference's
    stages read index by index — the quantise-dequantise of a group of 8 weights is pointwise the same on both sides, and the
    kernel's four K-block partial sums are the reference's one contraction regrouped. No finiteness is used.
-/
import proofs.«181300_j51196010168686_1_alg».proof.Defs
import proofs.«181300_j51196010168686_1_alg».proof.Proof.Gen.Kernel
import proofs.«181300_j51196010168686_1_alg».proof.Proof.Gen.KernelIdeal
import proofs.«181300_j51196010168686_1_alg».proof.Proof.Gen.ReferenceIdeal
import proofs.«181300_j51196010168686_1_alg».proof.Proof.Gen.ReferenceIdeal.Run
import proofs.«181300_j51196010168686_1_alg».proof.Proof.Gen.ReferenceIdeal.Read
import proofs.«181300_j51196010168686_1_alg».proof.Proof.Gen.Pre_finite_inputs
import proofs.«181300_j51196010168686_1_alg».proof.Proof.Word.Run
import proofs.«181300_j51196010168686_1_alg».proof.Proof.Run
import proofs.«181300_j51196010168686_1_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Run.frame (F := Bits) m ρ

/-- So does its idealisation. -/
theorem frame_ki : Cert.frame_KernelIdeal := fun m ρ _ => Cert.KernelIdeal.Run.frame (F := Ideal) m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Over the extended reals the kernel's result array and the reference's result are the same function of arguments that
    agree. -/
theorem algebraic : Cert.algebraic_KernelIdeal_ReferenceIdeal := by
  intro m ρ m' ρ' _ hagree
  refine ⟨fun c => (Cert.KernelIdeal.Run.mdat (Cert.KernelIdeal.Run.V2 m ρ) c).arrAt 3 Cert.KernelIdeal.cfg1.N,
    Cert.KernelIdeal.Run.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2.1, (hagree c).2.2]
  exact (Cert.KernelIdeal.Run.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
